-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v85) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v197) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128 .f32) (main_arg10 : FVec F S128x64 .f32) (main_arg11 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x64 .f32) (main_arg7 : FVec F S64 .f32) (main_arg8 : FVec F S128x128 .f32) (main_arg9 : FVec F S128 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S2x800000 32) (main_arg2 : FVec F S50000x128 .f32) (main_arg3 : IVec S2x800000 32) (main_arg4 : FVec F S128x128 .f32) (main_arg5 : FVec F S128 .f32) (main_arg6 : FVec F S128x64 .f32) (main_arg7 : FVec F S64 .f32) (main_arg8 : FVec F S128x128 .f32) (main_arg9 : FVec F S128 .f32) (main_arg10 : FVec F S128x64 .f32) (main_arg11 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg2
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x128 : Shape := ⟨2, ![5000, 128]⟩
abbrev S5000x1 : Shape := ⟨2, ![5000, 1]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 124
  | .vmem => 44
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000x128, .f32⟩
  | .hbm, ⟨3, _⟩ => ⟨S2x800000, .i32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S50000, .i32⟩
  | .hbm, ⟨17, _⟩ => ⟨S850000, .i32⟩
  | .hbm, ⟨18, _⟩ => ⟨S850000, .i32⟩
  | .hbm, ⟨19, _⟩ => ⟨S_, .f32⟩
  | .hbm, ⟨20, _⟩ => ⟨S850000, .f32⟩
  | .hbm, ⟨21, _⟩ => ⟨S_, .f32⟩
  | .hbm, ⟨22, _⟩ => ⟨S50000, .f32⟩
  | .hbm, ⟨23, _⟩ => ⟨S850000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000x128, .f32⟩
  | .hbm, ⟨47, _⟩ => ⟨S_, .f32⟩
  | .hbm, ⟨48, _⟩ => ⟨S50000x128, .f32⟩
  | .hbm, ⟨49, _⟩ => ⟨S850000x1, .i32⟩
  | .hbm, ⟨50, _⟩ => ⟨S50000x128, .f32⟩
  | .hbm, ⟨51, _⟩ => ⟨S1x128, .f32⟩
  | .hbm, ⟨52, _⟩ => ⟨S50000x64, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x64, .f32⟩
  | .hbm, ⟨62, _⟩ => ⟨S_, .f32⟩
  | .hbm, ⟨63, _⟩ => ⟨S50000x64, .f32⟩
  | .hbm, ⟨64, _⟩ => ⟨S850000x1, .i32⟩
  | .hbm, ⟨65, _⟩ => ⟨S50000x64, .f32⟩
  | .hbm, ⟨66, _⟩ => ⟨S1x64, .f32⟩
  | .hbm, ⟨67, _⟩ => ⟨S50000x64, .f32⟩
  | .hbm, ⟨68, _⟩ => ⟨S1x800000, .i32⟩
  | .hbm, ⟨69, _⟩ => ⟨S800000, .i32⟩
  | .hbm, ⟨70, _⟩ => ⟨S1x800000, .i32⟩
  | .hbm, ⟨71, _⟩ => ⟨S800000, .i32⟩
  | .hbm, ⟨72, _⟩ => ⟨S50000, .i32⟩
  | .hbm, ⟨73, _⟩ => ⟨S850000, .i32⟩
  | .hbm, ⟨74, _⟩ => ⟨S850000, .i32⟩
  | .hbm, ⟨75, _⟩ => ⟨S_, .f32⟩
  | .hbm, ⟨76, _⟩ => ⟨S850000, .f32⟩
  | .hbm, ⟨77, _⟩ => ⟨S_, .f32⟩
  | .hbm, ⟨78, _⟩ => ⟨S50000, .f32⟩
  | .hbm, ⟨79, _⟩ => ⟨S850000x1, .i32⟩
  | .hbm, ⟨80, _⟩ => ⟨S50000, .f32⟩
  | .hbm, ⟨81, _⟩ => ⟨S_, .f32⟩
  | .hbm, ⟨82, _⟩ => ⟨S50000, .f32⟩
  | .hbm, ⟨83, _⟩ => ⟨S50000, .i1⟩
  | .hbm, ⟨84, _⟩ => ⟨S_, .f32⟩
  | .hbm, ⟨85, _⟩ => ⟨S50000, .f32⟩
  | .hbm, ⟨86, _⟩ => ⟨S50000, .f32⟩
  | .hbm, ⟨87, _⟩ => ⟨S50000, .f32⟩
  | .hbm, ⟨88, _⟩ => ⟨S_, .f32⟩
  | .hbm, ⟨89, _⟩ => ⟨S_, .f32⟩
  | .hbm, ⟨90, _⟩ => ⟨S50000, .f32⟩
  | .hbm, ⟨91, _⟩ => ⟨S50000, .f32⟩
  | .hbm, ⟨92, _⟩ => ⟨S50000x1, .f32⟩
  | .hbm, ⟨93, _⟩ => ⟨S50000x128, .f32⟩
  | .hbm, ⟨94, _⟩ => ⟨S_, .i32⟩
  | .hbm, ⟨95, _⟩ => ⟨S850000, .i32⟩
  | .hbm, ⟨96, _⟩ => ⟨S850000, .i1⟩
  | .hbm, ⟨97, _⟩ => ⟨S_, .i32⟩
  | .hbm, ⟨98, _⟩ => ⟨S850000, .i32⟩
  | .hbm, ⟨99, _⟩ => ⟨S850000, .i32⟩
  | .hbm, ⟨100, _⟩ => ⟨S850000, .i32⟩
  | .hbm, ⟨101, _⟩ => ⟨S850000x1, .i32⟩
  | .hbm, ⟨102, _⟩ => ⟨S850000x128, .f32⟩
  | .hbm, ⟨103, _⟩ => ⟨S_, .f32⟩
  | .hbm, ⟨104, _⟩ => ⟨S50000x128, .f32⟩
  | .hbm, ⟨105, _⟩ => ⟨S850000x1, .i32⟩
  | .hbm, ⟨106, _⟩ => ⟨S50000x128, .f32⟩
  | .hbm, ⟨107, _⟩ => ⟨S1x128, .f32⟩
  | .hbm, ⟨108, _⟩ => ⟨S50000x64, .f32⟩
  | .hbm, ⟨109, _⟩ => ⟨S_, .i32⟩
  | .hbm, ⟨110, _⟩ => ⟨S850000, .i32⟩
  | .hbm, ⟨111, _⟩ => ⟨S850000, .i1⟩
  | .hbm, ⟨112, _⟩ => ⟨S_, .i32⟩
  | .hbm, ⟨113, _⟩ => ⟨S850000, .i32⟩
  | .hbm, ⟨114, _⟩ => ⟨S850000, .i32⟩
  | .hbm, ⟨115, _⟩ => ⟨S850000, .i32⟩
  | .hbm, ⟨116, _⟩ => ⟨S850000x1, .i32⟩
  | .hbm, ⟨117, _⟩ => ⟨S850000x64, .f32⟩
  | .hbm, ⟨118, _⟩ => ⟨S_, .f32⟩
  | .hbm, ⟨119, _⟩ => ⟨S50000x64, .f32⟩
  | .hbm, ⟨120, _⟩ => ⟨S850000x1, .i32⟩
  | .hbm, ⟨121, _⟩ => ⟨S50000x64, .f32⟩
  | .hbm, ⟨122, _⟩ => ⟨S1x64, .f32⟩
  | .hbm, ⟨123, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x1, .f32⟩
  | .local _ .vmem, ⟨18, _⟩ => ⟨S5000x1, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S5000x1, .f32⟩
  | .local _ .vmem, ⟨26, _⟩ => ⟨S5000x1, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x1, .f32⟩
  | .local _ .vmem, ⟨32, _⟩ => ⟨S5000x1, .f32⟩
  | .local _ .vmem, ⟨33, _⟩ => ⟨S1x128, .f32⟩
  | .local _ .vmem, ⟨34, _⟩ => ⟨S128x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x1, .f32⟩
  | .local _ .vmem, ⟨40, _⟩ => ⟨S5000x1, .f32⟩
  | .local _ .vmem, ⟨41, _⟩ => ⟨S1x64, .f32⟩
  | .local _ .vmem, ⟨42, _⟩ => ⟨S5000x64, .f32⟩
  | .local _ .vmem, ⟨43, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_8 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_9 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_v55 : Ref sig .tc := ⟨.hbm, 83, rfl⟩
abbrev main_cst_12 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_13 : Ref sig .tc := ⟨.hbm, 88, rfl⟩
abbrev main_call1_v0 : Ref sig .tc := ⟨.hbm, 89, rfl⟩
abbrev main_call1_v1 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_c_14 : Ref sig .tc := ⟨.hbm, 94, rfl⟩
abbrev main_v62 : Ref sig .tc := ⟨.hbm, 95, rfl⟩
abbrev main_v63 : Ref sig .tc := ⟨.hbm, 96, rfl⟩
abbrev main_c_15 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_16 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_c_17 : Ref sig .tc := ⟨.hbm, 109, rfl⟩
abbrev main_v74 : Ref sig .tc := ⟨.hbm, 110, rfl⟩
abbrev main_v75 : Ref sig .tc := ⟨.hbm, 111, rfl⟩
abbrev main_c_18 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_19 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg4_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg3_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem3_0 : DmaSem sig := 34
abbrev cc4_sem4_0 : DmaSem sig := 35
abbrev cc4_sem4_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem3_0 : DmaSem sig := 42
abbrev cc5_sem3_1 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x64.size a ≤ S128x64.size a
  hwx4_3 : ∀ i : grid4.Coords, EltTy.bits .f32 = 32 ∨ (Rect.block (s := S128x64) S128x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S50000x64.size a
  hwx4_4 : ∀ i : grid4.Coords, EltTy.bits .f32 = 32 ∨ (Rect.block (s := S50000x64) S5000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .f32 = 32 ∨ (Rect.block (s := S50000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S50000x64.size a
  hwx5_3 : ∀ i : grid5.Coords, EltTy.bits .f32 = 32 ∨ (Rect.block (s := S50000x64) S5000x64.size (cc5_transform_3 i) (hinb5_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg2) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v61) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v71) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v60) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v72) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg10) S128x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v73) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v83) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v84) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v85) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 270
  | .vmem => 0
  | .smem => 0
  | _ => 0

abbrev hbmTy0_0 (i : Nat) : BufTy := match i % 128 with
  | 0 => ⟨S50000x128, .f32⟩
  | 1 => ⟨S2x800000, .i32⟩
  | 2 => ⟨S50000x128, .f32⟩
  | 3 => ⟨S2x800000, .i32⟩
  | 4 => ⟨S128x128, .f32⟩
  | 5 => ⟨S128, .f32⟩
  | 6 => ⟨S128x64, .f32⟩
  | 7 => ⟨S64, .f32⟩
  | 8 => ⟨S128x128, .f32⟩
  | 9 => ⟨S128, .f32⟩
  | 10 => ⟨S128x64, .f32⟩
  | 11 => ⟨S64, .f32⟩
  | 12 => ⟨S50000, .i32⟩
  | 13 => ⟨S1x800000, .i32⟩
  | 14 => ⟨S800000, .i32⟩
  | 15 => ⟨S850000, .i32⟩
  | 16 => ⟨S1x800000, .i32⟩
  | 17 => ⟨S800000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S_, .f32⟩
  | 29 => ⟨S50000, .f32⟩
  | 30 => ⟨S50000, .f32⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S50000x128, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000x128, .f32⟩
  | 65 => ⟨S850000x1, .f32⟩
  | 66 => ⟨S850000x128, .f32⟩
  | 67 => ⟨S850000x128, .f32⟩
  | 68 => ⟨S_, .f32⟩
  | 69 => ⟨S50000x128, .f32⟩
  | 70 => ⟨S850000x1, .i32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S50000, .i32⟩
  | 79 => ⟨S1x800000, .i32⟩
  | 80 => ⟨S800000, .i32⟩
  | 81 => ⟨S850000, .i32⟩
  | 82 => ⟨S1x800000, .i32⟩
  | 83 => ⟨S800000, .i32⟩
  | 84 => ⟨S850000, .i32⟩
  | 85 => ⟨S_, .f32⟩
  | 86 => ⟨S850000, .f32⟩
  | 87 => ⟨S_, .f32⟩
  | 88 => ⟨S50000, .f32⟩
  | 89 => ⟨S850000x1, .i32⟩
  | 90 => ⟨S50000, .f32⟩
  | 91 => ⟨S_, .f32⟩
  | 92 => ⟨S50000, .f32⟩
  | 93 => ⟨S50000, .i1⟩
  | 94 => ⟨S_, .f32⟩
  | 95 => ⟨S50000, .f32⟩
  | 96 => ⟨S50000, .f32⟩
  | 97 => ⟨S50000, .f32⟩
  | 98 => ⟨S_, .f32⟩
  | 99 => ⟨S_, .f32⟩
  | 100 => ⟨S50000, .f32⟩
  | 101 => ⟨S50000, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000, .f32⟩
  | 120 => ⟨S850000, .f32⟩
  | 121 => ⟨S50000x64, .f32⟩
  | 122 => ⟨S_, .i32⟩
  | 123 => ⟨S850000, .i32⟩
  | 124 => ⟨S850000, .i1⟩
  | 125 => ⟨S_, .i32⟩
  | 126 => ⟨S850000, .i32⟩
  | 127 => ⟨S850000, .i32⟩
  | _ => ⟨S50000x128, .f32⟩

abbrev hbmTy0_1 (i : Nat) : BufTy := match i % 128 with
  | 0 => ⟨S850000, .i32⟩
  | 1 => ⟨S850000x1, .i32⟩
  | 2 => ⟨S850000x64, .f32⟩
  | 3 => ⟨S850000x1, .f32⟩
  | 4 => ⟨S850000x64, .f32⟩
  | 5 => ⟨S850000x64, .f32⟩
  | 6 => ⟨S_, .f32⟩
  | 7 => ⟨S50000x64, .f32⟩
  | 8 => ⟨S850000x1, .i32⟩
  | 9 => ⟨S50000x64, .f32⟩
  | 10 => ⟨S1x64, .f32⟩
  | 11 => ⟨S50000x64, .f32⟩
  | 12 => ⟨S50000x64, .f32⟩
  | 13 => ⟨S50000, .i32⟩
  | 14 => ⟨S1x800000, .i32⟩
  | 15 => ⟨S800000, .i32⟩
  | 16 => ⟨S850000, .i32⟩
  | 17 => ⟨S1x800000, .i32⟩
  | 18 => ⟨S800000, .i32⟩
  | 19 => ⟨S850000, .i32⟩
  | 20 => ⟨S_, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .i1⟩
  | 29 => ⟨S_, .f32⟩
  | 30 => ⟨S50000, .f32⟩
  | 31 => ⟨S50000, .f32⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S50000x128, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x128, .f32⟩
  | 66 => ⟨S850000x1, .f32⟩
  | 67 => ⟨S850000x128, .f32⟩
  | 68 => ⟨S850000x128, .f32⟩
  | 69 => ⟨S_, .f32⟩
  | 70 => ⟨S50000x128, .f32⟩
  | 71 => ⟨S850000x1, .i32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S50000, .i32⟩
  | 80 => ⟨S1x800000, .i32⟩
  | 81 => ⟨S800000, .i32⟩
  | 82 => ⟨S850000, .i32⟩
  | 83 => ⟨S1x800000, .i32⟩
  | 84 => ⟨S800000, .i32⟩
  | 85 => ⟨S850000, .i32⟩
  | 86 => ⟨S_, .f32⟩
  | 87 => ⟨S850000, .f32⟩
  | 88 => ⟨S_, .f32⟩
  | 89 => ⟨S50000, .f32⟩
  | 90 => ⟨S850000x1, .i32⟩
  | 91 => ⟨S50000, .f32⟩
  | 92 => ⟨S_, .f32⟩
  | 93 => ⟨S50000, .f32⟩
  | 94 => ⟨S50000, .i1⟩
  | 95 => ⟨S_, .f32⟩
  | 96 => ⟨S50000, .f32⟩
  | 97 => ⟨S50000, .f32⟩
  | 98 => ⟨S50000, .f32⟩
  | 99 => ⟨S_, .f32⟩
  | 100 => ⟨S_, .f32⟩
  | 101 => ⟨S50000, .f32⟩
  | 102 => ⟨S50000, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000, .f32⟩
  | 112 => ⟨S_, .i32⟩
  | 113 => ⟨S850000, .i32⟩
  | 114 => ⟨S850000, .i1⟩
  | 115 => ⟨S_, .i32⟩
  | 116 => ⟨S850000, .i32⟩
  | 117 => ⟨S850000, .i32⟩
  | 118 => ⟨S850000, .i32⟩
  | 119 => ⟨S850000x1, .i32⟩
  | 120 => ⟨S850000, .f32⟩
  | 121 => ⟨S850000, .f32⟩
  | 122 => ⟨S50000x64, .f32⟩
  | 123 => ⟨S_, .i32⟩
  | 124 => ⟨S850000, .i32⟩
  | 125 => ⟨S850000, .i1⟩
  | 126 => ⟨S_, .i32⟩
  | 127 => ⟨S850000, .i32⟩
  | _ => ⟨S50000x128, .f32⟩

abbrev hbmTy0_2 (i : Nat) : BufTy := match i % 128 with
  | 0 => ⟨S850000, .i32⟩
  | 1 => ⟨S850000, .i32⟩
  | 2 => ⟨S850000x1, .i32⟩
  | 3 => ⟨S850000x64, .f32⟩
  | 4 => ⟨S850000x1, .f32⟩
  | 5 => ⟨S850000x64, .f32⟩
  | 6 => ⟨S850000x64, .f32⟩
  | 7 => ⟨S_, .f32⟩
  | 8 => ⟨S50000x64, .f32⟩
  | 9 => ⟨S850000x1, .i32⟩
  | 10 => ⟨S50000x64, .f32⟩
  | 11 => ⟨S1x64, .f32⟩
  | 12 => ⟨S50000x64, .f32⟩
  | 13 => ⟨S50000x64, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_cst : Ref sig .tc := ⟨.hbm, 75, rfl⟩
abbrev main_call1_v0 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_10 : Ref sig .tc := ⟨.hbm, 85, rfl⟩
abbrev main_v57 : Ref sig .tc := ⟨.hbm, 86, rfl⟩
abbrev main_cst_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_12 : Ref sig .tc := ⟨.hbm, 91, rfl⟩
abbrev main_v61 : Ref sig .tc := ⟨.hbm, 92, rfl⟩
abbrev main_v62 : Ref sig .tc := ⟨.hbm, 93, rfl⟩
abbrev main_cst_13 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_14 : Ref sig .tc := ⟨.hbm, 98, rfl⟩
abbrev main_call2_v0 : Ref sig .tc := ⟨.hbm, 99, rfl⟩
abbrev main_call2_v1 : Ref sig .tc := ⟨.hbm, 100, rfl⟩
abbrev main_v66 : Ref sig .tc := ⟨.hbm, 101, rfl⟩
abbrev main_c_15 : Ref sig .tc := ⟨.hbm, 102, rfl⟩
abbrev main_v67 : Ref sig .tc := ⟨.hbm, 103, rfl⟩
abbrev main_v68 : Ref sig .tc := ⟨.hbm, 104, rfl⟩
abbrev main_c_16 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_c_17 : Ref sig .tc := ⟨.hbm, 111, rfl⟩
abbrev main_v74 : Ref sig .tc := ⟨.hbm, 112, rfl⟩
abbrev main_v75 : Ref sig .tc := ⟨.hbm, 113, rfl⟩
abbrev main_c_18 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_c_19 : Ref sig .tc := ⟨.hbm, 122, rfl⟩
abbrev main_v83 : Ref sig .tc := ⟨.hbm, 123, rfl⟩
abbrev main_v84 : Ref sig .tc := ⟨.hbm, 124, rfl⟩
abbrev main_c_20 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_21 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_cst_22 : Ref sig .tc := ⟨.hbm, 148, rfl⟩
abbrev main_v106 : Ref sig .tc := ⟨.hbm, 149, rfl⟩
abbrev main_cst_23 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_24 : Ref sig .tc := ⟨.hbm, 154, rfl⟩
abbrev main_v110 : Ref sig .tc := ⟨.hbm, 155, rfl⟩
abbrev main_v111 : Ref sig .tc := ⟨.hbm, 156, rfl⟩
abbrev main_cst_25 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_cst_26 : Ref sig .tc := ⟨.hbm, 161, rfl⟩
abbrev main_call3_v0 : Ref sig .tc := ⟨.hbm, 162, rfl⟩
abbrev main_call3_v1 : Ref sig .tc := ⟨.hbm, 163, rfl⟩
abbrev main_v115 : Ref sig .tc := ⟨.hbm, 164, rfl⟩
abbrev main_c_27 : Ref sig .tc := ⟨.hbm, 165, rfl⟩
abbrev main_v116 : Ref sig .tc := ⟨.hbm, 166, rfl⟩
abbrev main_v117 : Ref sig .tc := ⟨.hbm, 167, rfl⟩
abbrev main_c_28 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_c_29 : Ref sig .tc := ⟨.hbm, 174, rfl⟩
abbrev main_v123 : Ref sig .tc := ⟨.hbm, 175, rfl⟩
abbrev main_v124 : Ref sig .tc := ⟨.hbm, 176, rfl⟩
abbrev main_c_30 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_c_31 : Ref sig .tc := ⟨.hbm, 185, rfl⟩
abbrev main_v132 : Ref sig .tc := ⟨.hbm, 186, rfl⟩
abbrev main_v133 : Ref sig .tc := ⟨.hbm, 187, rfl⟩
abbrev main_c_32 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_cst_33 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_call4_cst : Ref sig .tc := ⟨.hbm, 204, rfl⟩
abbrev main_call4_v0 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_cst_34 : Ref sig .tc := ⟨.hbm, 214, rfl⟩
abbrev main_v156 : Ref sig .tc := ⟨.hbm, 215, rfl⟩
abbrev main_cst_35 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_cst_36 : Ref sig .tc := ⟨.hbm, 220, rfl⟩
abbrev main_v160 : Ref sig .tc := ⟨.hbm, 221, rfl⟩
abbrev main_v161 : Ref sig .tc := ⟨.hbm, 222, rfl⟩
abbrev main_cst_37 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_cst_38 : Ref sig .tc := ⟨.hbm, 227, rfl⟩
abbrev main_call5_v0 : Ref sig .tc := ⟨.hbm, 228, rfl⟩
abbrev main_call5_v1 : Ref sig .tc := ⟨.hbm, 229, rfl⟩
abbrev main_v165 : Ref sig .tc := ⟨.hbm, 230, rfl⟩
abbrev main_c_39 : Ref sig .tc := ⟨.hbm, 231, rfl⟩
abbrev main_v166 : Ref sig .tc := ⟨.hbm, 232, rfl⟩
abbrev main_v167 : Ref sig .tc := ⟨.hbm, 233, rfl⟩
abbrev main_c_40 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_c_41 : Ref sig .tc := ⟨.hbm, 240, rfl⟩
abbrev main_v173 : Ref sig .tc := ⟨.hbm, 241, rfl⟩
abbrev main_v174 : Ref sig .tc := ⟨.hbm, 242, rfl⟩
abbrev main_c_42 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_c_43 : Ref sig .tc := ⟨.hbm, 251, rfl⟩
abbrev main_v182 : Ref sig .tc := ⟨.hbm, 252, rfl⟩
abbrev main_v183 : Ref sig .tc := ⟨.hbm, 253, rfl⟩
abbrev main_c_44 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_v188 : Ref sig .tc := ⟨.hbm, 259, rfl⟩
abbrev main_v189 : Ref sig .tc := ⟨.hbm, 260, rfl⟩
abbrev main_v190 : Ref sig .tc := ⟨.hbm, 261, rfl⟩
abbrev main_v191 : Ref sig .tc := ⟨.hbm, 262, rfl⟩
abbrev main_cst_45 : Ref sig .tc := ⟨.hbm, 263, rfl⟩
abbrev main_v192 : Ref sig .tc := ⟨.hbm, 264, rfl⟩
abbrev main_v193 : Ref sig .tc := ⟨.hbm, 265, rfl⟩
abbrev main_v194 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel's run with its two results named.

  The program is six kernel launches among stretches of host operations. Every weakly fair execution terminates
  without a fault, and at the end each unscoped buffer holds what the fold through the sixteen segments leaves in
  it: in particular the two result buffers hold the fold's contents, and the twelve arguments are as launched.
-/
import proofs.«116244_j75265006895439_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the two results end at the contents the last segment
    boundary names, the arguments as launched. -/
theorem run_results : θ_run defs (onTc (τ := τ) (main (F := F))) ⟨m, fun _ => 0, ρ⟩ (fun r => ∀ c : Dev nD,
      r.2.mem ((c.tc : Thread nD τ).loc main_v42) = W16 m ρ c (Proc.devRef .tc main_v42)
      ∧ r.2.mem ((c.tc : Thread nD τ).loc main_v85) = W16 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v42 (by decide)),
       h c _ (mem_uc main_v85 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c)⟩)

end Cert.KernelIdeal.Results

end
-- ==== Proof.LibRowIndex.lean ====
/-
  Gathers and scatters that move whole rows by ONE start index per row, read at an index written by coordinates.

  An integer column `idx : [E, 1]` names, for each of `E` edges, one row of an operand with `N` rows.
  * Gathering rows of a matrix `x : [N, C]` gives `[E, C]`: element `(e, c)` is `x` at row `idx[e, 0]` — read as a signed
    integer and clamped into `[0, N - 1]` — and column `c`.
  * Gathering entries of a vector `x : [N]` gives `[E]`: element `e` is `x` at `idx[e, 0]`, read signed and clamped.
  * Scattering the rows of updates `[E, C]` into `[N, C]`: update element `(e, c)` lands in row `idx[e, 0]` read as a signed
    integer and NOT clamped (an update whose row is outside `[0, N)` is dropped). All that is stated here is the row: if
    the update lands at `i`, then `idx[e, 0]`, as a signed integer, is `i`'s row.
-/
import Idealize.ShloMosaic.Lib.ValueIdx

noncomputable section

namespace Cert.Lib.RowIndex

open Idealize.ShloMosaic Idealize.ShloMosaic.ValueIdx

variable {α : Type}

/-! ## Gathering rows of a matrix -/

/-- The dimension numbers of `x[idx]` for a matrix `x : [N, C]` and a column of row numbers `idx : [E, 1]`: the rows
    are collapsed, the columns are the offset axis, one start index per result row. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Element `(e, c)` of the gathered rows is the matrix at the clamped row `idx[e, 0]` and column `c`. -/
theorem rowGather_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N C E wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N C E wf).start (ix2 e c) idx 0 + (rowGatherDims N C E wf).batchCoord (ix2 e c) 0
      + (rowGatherDims N C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e c) ⟨List.idxOf (0 : Fin 2) (rowGatherDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N C E wf).start (ix2 e c) idx 1 + (rowGatherDims N C E wf).batchCoord (ix2 e c) 1
      + (rowGatherDims N C E wf).offCoord (ix2 e c) 1 = c.val
    rw [GatherDims.batchCoord_eq_zero _ _ _ List.not_mem_nil]
    have hs : (rowGatherDims N C E wf).start (ix2 e c) idx 1 = 0 := by
      unfold GatherDims.start
      rw [dif_neg (show ¬ (1 : Fin 2) ∈ (rowGatherDims N C E wf).startIndexMap from
        (by decide : ¬ (1 : Fin 2) ∈ ([0] : List (Fin 2))))]
    have ho : (rowGatherDims N C E wf).offCoord (ix2 e c) 1 = c.val := by
      unfold GatherDims.offCoord
      rw [dif_pos (show (1 : Fin 2) ∈ (rowGatherDims N C E wf).sKept from
        (GatherDims.mem_sKept _ _).mpr ⟨(by decide : ¬ (1 : Fin 2) ∈ ([0] : List (Fin 2))), List.not_mem_nil⟩)]
      rfl
    rw [hs, ho]; omega

/-! ## Gathering entries of a vector -/

/-- The dimension numbers of `x[idx]` for a vector `x : [N]` and a column of positions `idx : [E, 1]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Element `e` of the gathered entries is the vector at the clamped position `idx[e, 0]`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Scattering rows -/

/-- The dimension numbers of `zeros.at[idx].add(u)` for updates `u : [E, C]` into `[N, C]` and a column of row numbers
    `idx : [E, 1]`: the update's columns are its window, the operand's rows are inserted, one start index per update row. -/
abbrev rowScatterDims (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- If update element `u` lands at `i`, then its row number `idx[u₀, 0]`, as a signed integer, is `i`'s row. -/
theorem rowScatter_row {N C E w : Nat}
    (wf : ScatterDims.WF ⟨2, ![N, C]⟩ ⟨2, ![E, 1]⟩ ⟨2, ![E, C]⟩ [1] [0] [0] 1)
    (idx : IVec ⟨2, ![E, 1]⟩ w) (u : (⟨2, ![E, C]⟩ : Shape).Idx) (i : (⟨2, ![N, C]⟩ : Shape).Idx)
    (h : (rowScatterDims N C E wf).resultIdx? u idx = some i) :
    (idx (ix2 (u 0) 0)).toInt = ((i 0).val : Int) := by
  have hs : (rowScatterDims N C E wf).start u idx 0 = (idx (ix2 (u 0) 0)).toInt := by
    unfold ScatterDims.start
    rw [dif_pos (show (0 : Fin 2) ∈ (rowScatterDims N C E wf).scatterDimsToOperandDims from List.mem_singleton.mpr rfl)]
    have hsi : (rowScatterDims N C E wf).siIdx u ⟨List.idxOf (0 : Fin 2) (rowScatterDims N C E wf).scatterDimsToOperandDims,
        List.idxOf_lt_length_iff.2 (List.mem_singleton.mpr rfl)⟩ = ix2 (u 0) 0 := by
      funext b; refine Fin.ext ?_
      match b with
      | ⟨0, _⟩ => rfl
      | ⟨1, _⟩ => rfl
    rw [hsi]
    rfl
  have hw : (rowScatterDims N C E wf).window u 0 = 0 := by
    unfold ScatterDims.window
    rw [dif_neg (show ¬ (0 : Fin 2) ∈ (rowScatterDims N C E wf).sKept from
      (by decide : ¬ (0 : Fin 2) ∈ (List.finRange 2).filter (fun a => a ∉ ([0] : List (Fin 2)))))]
  unfold ScatterDims.resultIdx? at h
  split at h
  · rename_i hb
    have h0 : ((rowScatterDims N C E wf).start u idx 0 + ((rowScatterDims N C E wf).window u 0 : Int)).toNat = (i 0).val :=
      congrArg (fun f : (⟨2, ![N, C]⟩ : Shape).Idx => (f 0).val) (Option.some.inj h)
    have hb0 := (hb 0).1
    rw [hs, hw] at h0 hb0
    simp only [Nat.cast_zero, add_zero] at h0 hb0
    omega
  · exact absurd h (by simp)

end Cert.Lib.RowIndex

end
-- ==== Proof.AggregationLaw.lean ====
/-
  The law behind a symmetrically normalized graph aggregation, on the extended reals.

  Rows of a matrix `h : [N, C]` are gathered by one row number per edge (read signed and clamped into `[0, N-1]`),
  weighted, and added into the row the edge lands on (its landing row number read signed and NOT clamped: an edge
  whose landing row is outside `[0, N)` is dropped). Weighting each gathered row by `dis src · dis dst` before the
  sum is the same as scaling the rows of `h` by `dis` first and row `i` of the sum by `dis i` afterwards:
  every edge that lands on row `i` has `dst = i`, the weight splits by associativity of the product, and a factor
  that is nonnegative and not `+∞` moves out of a finite sum of extended reals (distributivity holds for such a
  factor whatever the summands are, infinite ones included).
  The normalizer `dis = [deg > 0] · rsqrt (max deg ε)` is such a factor for every `deg` and every `ε`.
-/
import Idealize.ShloMosaic.Lib.ValueIdx
import Idealize.ShloMosaic.PureOps.Ideal.Laws
import proofs.«116244_j75265006895439_2_alg».proof.Proof.LibRowIndex

noncomputable section

namespace Cert.Aggregation

open Idealize.ShloMosaic Idealize.ShloMosaic.ValueIdx Cert.Lib.RowIndex

/-- A nonnegative factor other than `+∞` moves out of a finite sum of extended reals. -/
theorem sum_mul_const {ι : Type} (s : Finset ι) (f : ι → EReal) {d : EReal} (h0 : 0 ≤ d) (hT : d ≠ ⊤) :
    (∑ u ∈ s, f u) * d = ∑ u ∈ s, f u * d := by
  classical
  refine Finset.induction_on s ?_ ?_
  · simp
  · intro a s ha ih
    rw [Finset.sum_insert ha, Finset.sum_insert ha, EReal.right_distrib_of_nonneg_of_ne_top h0 hT, ih]

/-- The reciprocal square root of a positive extended real is nonnegative and finite (`+∞ ↦ 0`). -/
theorem rsqrt_bounds {y : EReal} (hy : 0 < y) : 0 ≤ Ideal.rsqrt y ∧ Ideal.rsqrt y ≠ ⊤ := by
  induction y using EReal.rec with
  | bot => exact absurd hy (not_lt_bot)
  | top => exact ⟨le_of_eq Ideal.rsqrt_top.symm, by rw [Ideal.rsqrt_top]; exact EReal.zero_ne_top⟩
  | coe r =>
    have hr : 0 < r := by exact_mod_cast hy
    rw [Ideal.rsqrt_coe, if_neg (not_lt.mpr hr.le), if_neg hr.ne']
    exact ⟨by exact_mod_cast (inv_nonneg.mpr (Real.sqrt_nonneg r)), EReal.coe_ne_top _⟩

/-- The normalizer `[deg > 0] · rsqrt (max deg ε)`, else `0`, is nonnegative and never `+∞`: where it is not `0`
    the degree is positive, so the square root's argument is. -/
theorem normalizer_bounds (deg eps : EReal) :
    0 ≤ Scalar.select (Ideal.cmp .ogt deg 0) (Ideal.rsqrt (max deg eps)) (0 : EReal)
      ∧ Scalar.select (Ideal.cmp .ogt deg 0) (Ideal.rsqrt (max deg eps)) (0 : EReal) ≠ ⊤ := by
  by_cases h : 0 < deg
  · have hb : Ideal.cmp .ogt deg 0 = 1#1 := by
      show BitVec.ofBool (decide (0 < deg)) = 1#1
      rw [decide_eq_true h]; rfl
    rw [hb, select_one]
    exact rsqrt_bounds (lt_of_lt_of_le h (le_max_left _ _))
  · have hb : Ideal.cmp .ogt deg 0 = 0#1 := by
      show BitVec.ofBool (decide (0 < deg)) = 0#1
      rw [decide_eq_false h]; rfl
    rw [hb, select_zero]
    exact ⟨le_rfl, EReal.zero_ne_top⟩

/-- Wrapping a negative row number around (`x < 0 ? x + k : x`) leaves a nonnegative one alone. -/
theorem wrap_of_nonneg (x k : BitVec 32) (hx : 0 ≤ x.toInt) :
    Scalar.select (IntOp.cmpi .slt x 0#32) (IntOp.addi x k) x = x := by
  have hb : IntOp.cmpi .slt x 0#32 = 0#1 := by
    show BitVec.ofBool (x.slt 0#32) = 0#1
    have : x.slt 0#32 = false := by
      rw [BitVec.slt]; simp only [decide_eq_false_iff_not, not_lt]; simpa using hx
    rw [this]; rfl
  rw [hb, select_zero]

variable {N C E : Nat}

/-- The row an edge reads: its start index read signed and clamped into `[0, N-1]`. -/
def clampRow (hN : 0 < N) (idx : IVec ⟨2, ![E, 1]⟩ 32) (e : Fin E) : Fin N :=
  ⟨min (idx (ix2 e 0)).toInt.toNat (N - 1), by omega⟩

/-- ONE LAYER. Gathering the rows of `hs = h · dis` (rows scaled) by `srcN`, adding them into the rows `dstC` names,
    and scaling row `i` of the sum by `dis i`, is gathering the rows of `h`, weighting edge `e` by
    `dis (src e) · dis (dst e)` (both read clamped, the second through `dstN`, which agrees with `dstC` wherever
    `dstC` is nonnegative) and adding them into the same rows. -/
theorem layer (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (h hs z : FVec Ideal ⟨2, ![N, C]⟩ .f32) (dis : Fin N → EReal)
    (hhs : ∀ n c, hs (ix2 n c) = h (ix2 n c) * dis n)
    (h0 : ∀ n, 0 ≤ dis n) (hT : ∀ n, dis n ≠ ⊤) (hz : ∀ i, z i = 0)
    (srcN dstN dstC : IVec ⟨2, ![E, 1]⟩ 32)
    (hrel : ∀ e, 0 ≤ (dstC (ix2 e 0)).toInt → dstN (ix2 e 0) = dstC (ix2 e 0))
    (wgt : FVec Ideal ⟨2, ![E, C]⟩ .f32)
    (hwgt : ∀ e c, wgt (ix2 e c) = dis (clampRow hN srcN e) * dis (clampRow hN dstN e))
    (i : Fin N) (c : Fin C) :
    Host.scatterAdd (rowScatterDims N C E wfS) z dstC (Host.gather (rowGatherDims N C E wfG) hs srcN) (ix2 i c) * dis i
      = Host.scatterAdd (rowScatterDims N C E wfS) z dstC
          (mulf (Host.gather (rowGatherDims N C E wfG) h srcN) wgt) (ix2 i c) := by
  unfold Host.scatterAdd
  rw [Ideal.hostScatterAdd_def, Ideal.hostScatterAdd_def]
  unfold Ideal.hostScatterAdd
  rw [hz, zero_add, zero_add, sum_mul_const _ _ (h0 i) (hT i)]
  refine Finset.sum_congr rfl fun u hu => ?_
  have hrow := rowScatter_row wfS dstC u (ix2 i c) (Finset.mem_filter.mp hu).2
  obtain ⟨e, k, rfl⟩ : ∃ (e : Fin E) (k : Fin C), u = ix2 e k := ⟨u 0, u 1, eq_ix2 u⟩
  rw [mulf_apply, rowGather_apply hN wfG hs srcN e k, rowGather_apply hN wfG h srcN e k, hhs, hwgt]
  have h1 : (dstC (ix2 e 0)).toInt = (i.val : Int) := hrow
  have hd : clampRow hN dstN e = i := by
    have h2 := hrel e (by omega)
    refine Fin.ext ?_
    show min (dstN (ix2 e 0)).toInt.toNat (N - 1) = i.val
    rw [h2, h1]
    have := i.isLt
    omega
  rw [hd]
  exact mul_assoc _ _ _

end Cert.Aggregation

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.LibColBroadcast.lean ====
/-
  A column `[a, 1]` broadcast along the rows of `[a, b]`, read at an index written by coordinates: entry (i, j) of the
  result is the column's entry i.  General lemma: any element type, any extents.
-/
import Idealize.ShloMosaic.Lib.Pipeline.Value
import Idealize.ShloMosaic.Lib.ValueIdx

namespace Cert.LibColBroadcast

open Idealize.ShloMosaic Idealize.ShloMosaic.ValueIdx

/-- A column `[a, 1]` broadcast along the rows of `[a, b]` reads, at `(i, j)`, the column's entry `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColBroadcast
-- ==== Proof.LibRowBroadcast.lean ====
/-
  A row `[1, b]` broadcast down the rows of `[a, b]`, read at an index written by coordinates: the counterpart, for a
  bias row added to every row of a matrix, of a column `[a, 1]` broadcast along the rows. General lemma: any element
  type, any extents.
-/
import Idealize.ShloMosaic.Lib.Pipeline.Value
import Idealize.ShloMosaic.Lib.ValueIdx

namespace Cert.LibRowBroadcast

open Idealize.ShloMosaic Idealize.ShloMosaic.ValueIdx

/-- A row `[1, b]` broadcast down the rows of `[a, b]` reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

end Cert.LibRowBroadcast
-- ==== Proof.Payloads.lean ====
/-
  What each of the three kernel bodies stores, entry by entry, on the extended reals.

  * the first body: one row block of `x` times the weight matrix, every row then scaled by that row's normalizer:
    entry (p, q) is `(∑ r, x (p, r) · w (r, q)) · d (p, 0)`;
  * the second body: the aggregated block scaled row by row, the bias row added, clipped below at zero, then
    multiplied by the second weight matrix and scaled again:
    entry (p, q) is `(∑ r, max (a (p, r) · d (p, 0) + b (0, r)) 0 · w (r, q)) · d (p, 0)`;
  * the third body: entry (p, q) is `a (p, q) · d (p, 0) + b (0, q)`.
  A change of float format is the identity on the extended reals, and the matrix unit's product into a zero
  accumulator is the plain sum of products.
-/
import proofs.«116244_j75265006895439_2_alg».proof.Proof.Gen.KernelIdeal.Skeleton
import Idealize.ShloMosaic.Lib.Pipeline.Value
import Idealize.ShloMosaic.Lib.ValueIdx
import Idealize.ShloMosaic.PureOps.Ideal.Laws
import proofs.«116244_j75265006895439_2_alg».proof.Proof.LibPlainDot
import proofs.«116244_j75265006895439_2_alg».proof.Proof.LibColBroadcast
import proofs.«116244_j75265006895439_2_alg».proof.Proof.LibRowBroadcast

noncomputable section

namespace Cert.KernelIdeal.Payloads

open Cert.KernelIdeal Cert.KernelIdeal.Gen Idealize.ShloMosaic Idealize.ShloMosaic.ValueIdx

/-- The scaled product's block at an entry. -/
theorem scaledProduct128 (x0 : Vec Ideal S5000x128 .f32) (x1 : Vec Ideal S128x128 .f32) (x2 : Vec Ideal S5000x1 .f32)
    (p : Fin 5000) (q : Fin 128) :
    k0_pay1 (F := Ideal) x0 x1 x2 (ix2 p q) = (∑ r : Fin 128, x0 (ix2 p r) * x1 (ix2 r q)) * x2 (ix2 p (0 : Fin 1)) := by
  unfold k0_pay1
  rw [mulf_apply, Cert.PlainDot.matmul_zero_ix2 dot_S5000x128_S128x128_S5000x128_1_0_0_1_n_n rfl, Cert.LibColBroadcast.broadcastTo_a1_ab_apply, shapeCast_self]
  rfl

/-- The same body in the second branch. -/
theorem scaledProduct128' (x0 : Vec Ideal S5000x128 .f32) (x1 : Vec Ideal S128x128 .f32) (x2 : Vec Ideal S5000x1 .f32)
    (p : Fin 5000) (q : Fin 128) :
    k3_pay1 (F := Ideal) x0 x1 x2 (ix2 p q) = (∑ r : Fin 128, x0 (ix2 p r) * x1 (ix2 r q)) * x2 (ix2 p (0 : Fin 1)) := by
  unfold k3_pay1
  rw [mulf_apply, Cert.PlainDot.matmul_zero_ix2 dot_S5000x128_S128x128_S5000x128_1_0_0_1_n_n rfl, Cert.LibColBroadcast.broadcastTo_a1_ab_apply, shapeCast_self]
  rfl

/-- The fused epilogue and second product's block at an entry. -/
theorem clippedProduct64 (v0 : Vec Ideal S5000x128 .f32) (v2 : Vec Ideal S5000x1 .f32) (v6 : Vec Ideal S1x128 .f32)
    (v13 : Vec Ideal S128x64 .f32) (v16 : Vec Ideal S5000x1 .f32) (p : Fin 5000) (q : Fin 64) :
    k1_pay1 (F := Ideal) v0 v2 v6 v13 v16 (ix2 p q)
      = (∑ r : Fin 128, max (v0 (ix2 p r) * v2 (ix2 p (0 : Fin 1)) + v6 (ix2 (0 : Fin 1) r)) (Ideal.ofBits .f32 0x00000000#32)
          * v13 (ix2 r q)) * v16 (ix2 p (0 : Fin 1)) := by
  unfold k1_pay1
  simp only [shapeCast_self]
  rw [mulf_apply, Cert.PlainDot.matmul_zero_ix2 dot_S5000x128_S128x64_S5000x64_1_0_0_1_n_n rfl,
    Cert.LibColBroadcast.broadcastTo_a1_ab_apply]
  congr 1
  refine Finset.sum_congr rfl fun r _ => ?_
  congr 1
  show max (v0 (ix2 p r) * (broadcastTo S5000x128 v2 broadcasts_S5000x1_S5000x128) (ix2 p r)
      + (broadcastTo S5000x128 v6 broadcasts_S1x128_S5000x128) (ix2 p r)) _ = _
  rw [Cert.LibColBroadcast.broadcastTo_a1_ab_apply, Cert.LibRowBroadcast.broadcastTo_1b_ab_apply]
  rfl

/-- The same body in the second branch. -/
theorem clippedProduct64' (v0 : Vec Ideal S5000x128 .f32) (v2 : Vec Ideal S5000x1 .f32) (v6 : Vec Ideal S1x128 .f32)
    (v13 : Vec Ideal S128x64 .f32) (v16 : Vec Ideal S5000x1 .f32) (p : Fin 5000) (q : Fin 64) :
    k4_pay1 (F := Ideal) v0 v2 v6 v13 v16 (ix2 p q)
      = (∑ r : Fin 128, max (v0 (ix2 p r) * v2 (ix2 p (0 : Fin 1)) + v6 (ix2 (0 : Fin 1) r)) (Ideal.ofBits .f32 0x00000000#32)
          * v13 (ix2 r q)) * v16 (ix2 p (0 : Fin 1)) := by
  unfold k4_pay1
  simp only [shapeCast_self]
  rw [mulf_apply, Cert.PlainDot.matmul_zero_ix2 dot_S5000x128_S128x64_S5000x64_1_0_0_1_n_n rfl,
    Cert.LibColBroadcast.broadcastTo_a1_ab_apply]
  congr 1
  refine Finset.sum_congr rfl fun r _ => ?_
  congr 1
  show max (v0 (ix2 p r) * (broadcastTo S5000x128 v2 broadcasts_S5000x1_S5000x128) (ix2 p r)
      + (broadcastTo S5000x128 v6 broadcasts_S1x128_S5000x128) (ix2 p r)) _ = _
  rw [Cert.LibColBroadcast.broadcastTo_a1_ab_apply, Cert.LibRowBroadcast.broadcastTo_1b_ab_apply]
  rfl

/-- The last epilogue's block at an entry. -/
theorem scaledPlusBias64 (v0 : Vec Ideal S5000x64 .f32) (v2 : Vec Ideal S5000x1 .f32) (v6 : Vec Ideal S1x64 .f32)
    (p : Fin 5000) (q : Fin 64) :
    k2_pay1 (F := Ideal) v0 v2 v6 (ix2 p q) = v0 (ix2 p q) * v2 (ix2 p (0 : Fin 1)) + v6 (ix2 (0 : Fin 1) q) := by
  unfold k2_pay1
  simp only [shapeCast_self]
  rw [addf_apply, mulf_apply, Cert.LibColBroadcast.broadcastTo_a1_ab_apply, Cert.LibRowBroadcast.broadcastTo_1b_ab_apply]

/-- The same body in the second branch. -/
theorem scaledPlusBias64' (v0 : Vec Ideal S5000x64 .f32) (v2 : Vec Ideal S5000x1 .f32) (v6 : Vec Ideal S1x64 .f32)
    (p : Fin 5000) (q : Fin 64) :
    k5_pay1 (F := Ideal) v0 v2 v6 (ix2 p q) = v0 (ix2 p q) * v2 (ix2 p (0 : Fin 1)) + v6 (ix2 (0 : Fin 1) q) := by
  unfold k5_pay1
  simp only [shapeCast_self]
  rw [addf_apply, mulf_apply, Cert.LibColBroadcast.broadcastTo_a1_ab_apply, Cert.LibRowBroadcast.broadcastTo_1b_ab_apply]

end Cert.KernelIdeal.Payloads

end
-- ==== Proof.ScaledProduct.lean ====
/-
  The first kernel of a branch, as one whole-array function.

  Each of the ten grid points reads rows `5000 t … 5000 t + 4999` of `x` and of the normalizer column and the whole
  weight matrix, and writes back the same rows of `(x · w) · d`. The ten row blocks tile the result, so after the
  region the result array holds `(∑ r, x (i, r) · w (r, j)) · d (i, 0)` at every `(i, j)`.
-/
import proofs.«116244_j75265006895439_2_alg».proof.Proof.Gen.KernelIdeal.Frame
import proofs.«116244_j75265006895439_2_alg».proof.Proof.Payloads
import Idealize.ShloMosaic.Lib.Pipeline.Value
import Idealize.ShloMosaic.Lib.ValueIdx

set_option maxRecDepth 16384

noncomputable section

namespace Cert.KernelIdeal.Arrays

open Cert.KernelIdeal Cert.KernelIdeal.Gen Idealize.ShloMosaic Idealize.ShloMosaic.TcCoe Idealize.ShloMosaic.ValueIdx Idealize.SL.Sem
open Idealize.ShloMosaic.Pipeline (Dat)

/-- Zero offsets, as a constant function. -/
theorem hz : (![0, 0] : Fin 2 → Nat) = fun _ => 0 := funext fun a => by fin_cases a <;> rfl

/-- Rows of `x` times `w`, every row scaled by its normalizer: one whole-array function. -/
def scaled128 (x : S50000x128.Idx → EReal) (w : S128x128.Idx → EReal) (d : S50000x1.Idx → EReal) : S50000x128.Idx → EReal :=
  fun i => (∑ r : Fin 128, x (ix2 (i 0) r) * w (ix2 r (i 1))) * d (ix2 (i 0) (0 : Fin 1))

/-- One entry of a block is the whole-array function at the entry's place in the array, once the block's loads are
    read at their places. -/
theorem block0 (x0 : Vec Ideal S5000x128 .f32) (x1 : Vec Ideal S128x128 .f32) (x2 : Vec Ideal S5000x1 .f32)
    (X : S50000x128.Idx → EReal) (Wt : S128x128.Idx → EReal) (D : S50000x1.Idx → EReal)
    (p : Fin 5000) (q : Fin 128) (i : S50000x128.Idx)
    (hx : ∀ r : Fin 128, x0 (ix2 p r) = X (ix2 (i 0) r)) (hw : ∀ r : Fin 128, x1 (ix2 r q) = Wt (ix2 r (i 1)))
    (hd : x2 (ix2 p (0 : Fin 1)) = D (ix2 (i 0) (0 : Fin 1))) :
    k0_pay1 (F := Ideal) x0 x1 x2 (ix2 p q) = scaled128 X Wt D i := by
  rw [Payloads.scaledProduct128]
  unfold scaled128
  rw [hd]
  congr 1
  exact Finset.sum_congr rfl fun r _ => by rw [hx, hw]

section Region0
variable (V : (c : Dev nD) → (b : Ref sig .tc) → Buf (Elt Ideal) ((c : Thread nD τ).loc b))

/-- The index maps over the ten grid points: the row-blocked windows sit at block row `t`, the weight at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Point `t` writes back rows `5000 t … 5000 t + 4999` of the scaled product of the arrays the region finds. -/
theorem flushed0 (c : Dev nD) (t : Fin cfg0.N) :
    (dat0 V c).flushed 3 t = ((cfg0.win 3).blk t).view.read (Elt Ideal)
      (scaled128 (V c main_arg0) (V c main_arg4) (V c main_v17)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨e00, e01, e10, e11, e20, e21, e30, e31⟩ := idx0 t
  funext j
  show k0_pay1 (iblk0 V c 0 t) (iblk0 V c 1 t) (iblk0 V c 2 t) j
    = scaled128 (V c main_arg0) (V c main_arg4) (V c main_v17) (((cfg0.win 3).blk t).view.emb j)
  refine (congrArg (k0_pay1 (iblk0 V c 0 t) (iblk0 V c 1 t) (iblk0 V c 2 t)) (eq_ix2 j)).trans ?_
  refine block0 (iblk0 V c 0 t) (iblk0 V c 1 t) (iblk0 V c 2 t) (V c main_arg0) (V c main_arg4) (V c main_v17) (j 0) (j 1)
    (((cfg0.win 3).blk t).view.emb j) ?_ ?_ ?_
  · intro r
    show V c main_arg0 (((cfg0.win 0).blk t).view.emb (ix2 (j 0) r)) = V c main_arg0 _
    congr 1
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * r.val = r.val; omega
  · intro r
    show V c main_arg4 (((cfg0.win 1).blk t).view.emb (ix2 r (j 1))) = V c main_arg4 _
    congr 1
    funext a; apply Fin.ext
    match a with
    | ⟨0, _⟩ => show win0_1.index t (0 : Fin 2) * 128 + 1 * r.val = r.val; omega
    | ⟨1, _⟩ => show win0_1.index t (1 : Fin 2) * 128 + 1 * (j 1).val = win0_3.index t (1 : Fin 2) * 128 + 1 * (j 1).val; omega
  · show V c main_v17 (((cfg0.win 2).blk t).view.emb (ix2 (j 0) (0 : Fin 1))) = V c main_v17 _
    congr 1
    funext a; apply Fin.ext
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 1 + 1 * 0 = 0; omega

/-- An index of the result array is in point `t`'s block iff each coordinate is in the block's range. -/
theorem mem_blk0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v18).slice (win0_3.rect t)).set ↔ _
  rw [View.set_slice_whole, Rect.mem_set_unit]
  exact Iff.rfl

/-- Row `r` of the result is written by point `r / 5000`: the ten blocks tile the array. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨e00, e01, e10, e11, e20, e21, e30, e31⟩ := idx0 ⟨(i 0).val / 5000, ht⟩
  refine ⟨⟨(i 0).val / 5000, ht⟩, flush0_3 _, ?_⟩
  rw [mem_blk0]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    rw [e31]; omega

/-- After the region the result array is the scaled product of the arrays the region found. -/
theorem final0 (c : Dev nD) :
    (dat0 V c).arrAt 3 cfg0.N = scaled128 (V c main_arg0) (V c main_arg4) (V c main_v17) :=
  (dat0 V c).arrAt_eq_of_cover 3 _ (fun t _ => flushed0 V c t) cover0

end Region0

/-- One entry of a block is the whole-array function at the entry's place in the array, once the block's loads are
    read at their places. -/
theorem block3 (x0 : Vec Ideal S5000x128 .f32) (x1 : Vec Ideal S128x128 .f32) (x2 : Vec Ideal S5000x1 .f32)
    (X : S50000x128.Idx → EReal) (Wt : S128x128.Idx → EReal) (D : S50000x1.Idx → EReal)
    (p : Fin 5000) (q : Fin 128) (i : S50000x128.Idx)
    (hx : ∀ r : Fin 128, x0 (ix2 p r) = X (ix2 (i 0) r)) (hw : ∀ r : Fin 128, x1 (ix2 r q) = Wt (ix2 r (i 1)))
    (hd : x2 (ix2 p (0 : Fin 1)) = D (ix2 (i 0) (0 : Fin 1))) :
    k3_pay1 (F := Ideal) x0 x1 x2 (ix2 p q) = scaled128 X Wt D i := by
  rw [Payloads.scaledProduct128']
  unfold scaled128
  rw [hd]
  congr 1
  exact Finset.sum_congr rfl fun r _ => by rw [hx, hw]

section Region3
variable (V : (c : Dev nD) → (b : Ref sig .tc) → Buf (Elt Ideal) ((c : Thread nD τ).loc b))

/-- The index maps over the ten grid points: the row-blocked windows sit at block row `t`, the weight at block (0, 0). -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- Point `t` writes back rows `5000 t … 5000 t + 4999` of the scaled product of the arrays the region finds. -/
theorem flushed3 (c : Dev nD) (t : Fin cfg3.N) :
    (dat3 V c).flushed 3 t = ((cfg3.win 3).blk t).view.read (Elt Ideal)
      (scaled128 (V c main_arg2) (V c main_arg8) (V c main_v60)) := by
  show (cfg3.win 3).cut (grid3.coords t) ((dat3 V c).after 3 t) = _
  rw [after3_3]
  unfold out3_3
  rw [View.canon_unit_zero hz]
  simp only [View.ld_unit_zero (S := S5000x128) hz, View.ld_unit_zero (S := S128x128) hz, View.ld_unit_zero (S := S5000x1) hz]
  obtain ⟨e00, e01, e10, e11, e20, e21, e30, e31⟩ := idx3 t
  funext j
  show k3_pay1 (iblk3 V c 0 t) (iblk3 V c 1 t) (iblk3 V c 2 t) j
    = scaled128 (V c main_arg2) (V c main_arg8) (V c main_v60) (((cfg3.win 3).blk t).view.emb j)
  refine (congrArg (k3_pay1 (iblk3 V c 0 t) (iblk3 V c 1 t) (iblk3 V c 2 t)) (eq_ix2 j)).trans ?_
  refine block3 (iblk3 V c 0 t) (iblk3 V c 1 t) (iblk3 V c 2 t) (V c main_arg2) (V c main_arg8) (V c main_v60) (j 0) (j 1)
    (((cfg3.win 3).blk t).view.emb j) ?_ ?_ ?_
  · intro r
    show V c main_arg2 (((cfg3.win 0).blk t).view.emb (ix2 (j 0) r)) = V c main_arg2 _
    congr 1
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 128 + 1 * r.val = r.val; omega
  · intro r
    show V c main_arg8 (((cfg3.win 1).blk t).view.emb (ix2 r (j 1))) = V c main_arg8 _
    congr 1
    funext a; apply Fin.ext
    match a with
    | ⟨0, _⟩ => show win3_1.index t (0 : Fin 2) * 128 + 1 * r.val = r.val; omega
    | ⟨1, _⟩ => show win3_1.index t (1 : Fin 2) * 128 + 1 * (j 1).val = win3_3.index t (1 : Fin 2) * 128 + 1 * (j 1).val; omega
  · show V c main_v60 (((cfg3.win 2).blk t).view.emb (ix2 (j 0) (0 : Fin 1))) = V c main_v60 _
    congr 1
    funext a; apply Fin.ext
    match a with
    | ⟨0, _⟩ => show win3_2.index t (0 : Fin 2) * 5000 + 1 * (j 0).val = win3_3.index t (0 : Fin 2) * 5000 + 1 * (j 0).val; omega
    | ⟨1, _⟩ => show win3_2.index t (1 : Fin 2) * 1 + 1 * 0 = 0; omega

/-- An index of the result array is in point `t`'s block iff each coordinate is in the block's range. -/
theorem mem_blk3 (t : Fin cfg3.N) (i : S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v61).slice (win3_3.rect t)).set ↔ _
  rw [View.set_slice_whole, Rect.mem_set_unit]
  exact Iff.rfl

/-- Row `r` of the result is written by point `r / 5000`: the ten blocks tile the array. -/
theorem cover3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := N_3
  have ht : (i 0).val / 5000 < cfg3.N := by rw [hN]; omega
  obtain ⟨e00, e01, e10, e11, e20, e21, e30, e31⟩ := idx3 ⟨(i 0).val / 5000, ht⟩
  refine ⟨⟨(i 0).val / 5000, ht⟩, flush3_3 _, ?_⟩
  rw [mem_blk3]
  intro a
  match a with
  | ⟨0, _⟩ =>
    show win3_3.index ⟨(i 0).val / 5000, ht⟩ (0 : Fin 2) * 5000 ≤ (i 0).val
      ∧ (i 0).val < win3_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win3_3.index ⟨(i 0).val / 5000, ht⟩ (1 : Fin 2) * 128 ≤ (i 1).val
      ∧ (i 1).val < win3_3.index ⟨(i 0).val / 5000, ht⟩ (1 : Fin 2) * 128 + 128
    rw [e31]; omega

/-- After the region the result array is the scaled product of the arrays the region found. -/
theorem final3 (c : Dev nD) :
    (dat3 V c).arrAt 3 cfg3.N = scaled128 (V c main_arg2) (V c main_arg8) (V c main_v60) :=
  (dat3 V c).arrAt_eq_of_cover 3 _ (fun t _ => flushed3 V c t) cover3

end Region3

end Cert.KernelIdeal.Arrays

end
-- ==== Proof.ClippedProduct.lean ====
/-
  The second kernel of a branch, as one whole-array function.

  Each grid point reads rows `5000 t … 5000 t + 4999` of the aggregated array and of the normalizer column, the whole bias
  row and the whole second weight matrix, and writes back the same rows of
  `(max (a · d + b) 0 · w) · d`. The ten row blocks tile the result.
-/
import proofs.«116244_j75265006895439_2_alg».proof.Proof.Gen.KernelIdeal.Frame
import proofs.«116244_j75265006895439_2_alg».proof.Proof.Payloads
import Idealize.ShloMosaic.Lib.Pipeline.Value
import Idealize.ShloMosaic.Lib.ValueIdx

set_option maxRecDepth 16384

noncomputable section

namespace Cert.KernelIdeal.ArraysB

open Cert.KernelIdeal Cert.KernelIdeal.Gen Idealize.ShloMosaic Idealize.ShloMosaic.TcCoe Idealize.ShloMosaic.ValueIdx Idealize.SL.Sem
open Idealize.ShloMosaic.Pipeline (Dat)

/-- Zero offsets, as a constant function. -/
theorem hzB : (![0, 0] : Fin 2 → Nat) = fun _ => 0 := funext fun a => by fin_cases a <;> rfl

/-- The aggregated rows scaled by the normalizer, the bias row added, clipped below at zero, then times the second
    weight matrix and scaled again: one whole-array function. -/
def clipped64 (a : S50000x128.Idx → EReal) (d : S50000x1.Idx → EReal) (b : S1x128.Idx → EReal) (w : S128x64.Idx → EReal) :
    S50000x64.Idx → EReal :=
  fun i => (∑ r : Fin 128, max (a (ix2 (i 0) r) * d (ix2 (i 0) (0 : Fin 1)) + b (ix2 (0 : Fin 1) r)) (Ideal.ofBits .f32 0x00000000#32)
    * w (ix2 r (i 1))) * d (ix2 (i 0) (0 : Fin 1))

/-- One entry of a block is the whole-array function at the entry's place in the array, once the block's loads are
    read at their places. -/
theorem block1 (v0 : Vec Ideal S5000x128 .f32) (v2 : Vec Ideal S5000x1 .f32) (v6 : Vec Ideal S1x128 .f32)
    (v13 : Vec Ideal S128x64 .f32)
    (Ag : S50000x128.Idx → EReal) (D : S50000x1.Idx → EReal) (Bv : S1x128.Idx → EReal) (Wt : S128x64.Idx → EReal)
    (p : Fin 5000) (q : Fin 64) (i : S50000x64.Idx)
    (ha : ∀ r : Fin 128, v0 (ix2 p r) = Ag (ix2 (i 0) r)) (hd : v2 (ix2 p (0 : Fin 1)) = D (ix2 (i 0) (0 : Fin 1)))
    (hb : ∀ r : Fin 128, v6 (ix2 (0 : Fin 1) r) = Bv (ix2 (0 : Fin 1) r))
    (hw : ∀ r : Fin 128, v13 (ix2 r q) = Wt (ix2 r (i 1))) :
    k1_pay1 (F := Ideal) v0 v2 v6 v13 v2 (ix2 p q) = clipped64 Ag D Bv Wt i := by
  rw [Payloads.clippedProduct64]
  unfold clipped64
  rw [hd]
  congr 1
  exact Finset.sum_congr rfl fun r _ => by rw [ha, hb, hw]

section Region1
variable (V : (c : Dev nD) → (b : Ref sig .tc) → Buf (Elt Ideal) ((c : Thread nD τ).loc b))

/-- The index maps over the ten grid points: the row-blocked windows sit at block row `t`, the bias row and the weight
    at block (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Point `t` writes back rows `5000 t … 5000 t + 4999` of the clipped product of the arrays the region finds. -/
theorem flushed1 (c : Dev nD) (t : Fin cfg1.N) :
    (dat1 V c).flushed 4 t = ((cfg1.win 4).blk t).view.read (Elt Ideal)
      (clipped64 (V c main_v28) (V c main_v17) (V c main_v29) (V c main_arg6)) := by
  show (cfg1.win 4).cut (grid1.coords t) ((dat1 V c).after 4 t) = _
  rw [after1_4]
  unfold out1_4
  rw [View.canon_unit_zero hzB]
  simp only [View.ld_unit_zero (S := S5000x128) hzB, View.ld_unit_zero (S := S5000x1) hzB, View.ld_unit_zero (S := S1x128) hzB,
    View.ld_unit_zero (S := S128x64) hzB]
  obtain ⟨e00, e01, e10, e11, e20, e21, e30, e31, e40, e41⟩ := idx1 t
  funext j
  show k1_pay1 (iblk1 V c 0 t) (iblk1 V c 1 t) (iblk1 V c 2 t) (iblk1 V c 3 t) (iblk1 V c 1 t) j
    = clipped64 (V c main_v28) (V c main_v17) (V c main_v29) (V c main_arg6) (((cfg1.win 4).blk t).view.emb j)
  refine (congrArg (k1_pay1 (iblk1 V c 0 t) (iblk1 V c 1 t) (iblk1 V c 2 t) (iblk1 V c 3 t) (iblk1 V c 1 t)) (eq_ix2 j)).trans ?_
  refine block1 (iblk1 V c 0 t) (iblk1 V c 1 t) (iblk1 V c 2 t) (iblk1 V c 3 t)
    (V c main_v28) (V c main_v17) (V c main_v29) (V c main_arg6) (j 0) (j 1) (((cfg1.win 4).blk t).view.emb j) ?_ ?_ ?_ ?_
  · intro r
    show V c main_v28 (((cfg1.win 0).blk t).view.emb (ix2 (j 0) r)) = V c main_v28 _
    congr 1
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * r.val = r.val; omega
  · show V c main_v17 (((cfg1.win 1).blk t).view.emb (ix2 (j 0) (0 : Fin 1))) = V c main_v17 _
    congr 1
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 1 + 1 * 0 = 0; omega
  · intro r
    show V c main_v29 (((cfg1.win 2).blk t).view.emb (ix2 (0 : Fin 1) r)) = V c main_v29 _
    congr 1
    funext a; apply Fin.ext
    match a with
    | ⟨0, _⟩ => show win1_2.index t (0 : Fin 2) * 1 + 1 * 0 = 0; omega
    | ⟨1, _⟩ => show win1_2.index t (1 : Fin 2) * 128 + 1 * r.val = r.val; omega
  · intro r
    show V c main_arg6 (((cfg1.win 3).blk t).view.emb (ix2 r (j 1))) = V c main_arg6 _
    congr 1
    funext a; apply Fin.ext
    match a with
    | ⟨0, _⟩ => show win1_3.index t (0 : Fin 2) * 128 + 1 * r.val = r.val; omega
    | ⟨1, _⟩ => show win1_3.index t (1 : Fin 2) * 64 + 1 * (j 1).val = win1_4.index t (1 : Fin 2) * 64 + 1 * (j 1).val; omega

/-- An index of the result array is in point `t`'s block iff each coordinate is in the block's range. -/
theorem mem_blk1 (t : Fin cfg1.N) (i : S50000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v30).slice (win1_4.rect t)).set ↔ _
  rw [View.set_slice_whole, Rect.mem_set_unit]
  exact Iff.rfl

/-- Row `r` of the result is written by point `r / 5000`: the ten blocks tile the array. -/
theorem cover1 (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  have hN : cfg1.N = 10 := N_1
  have ht : (i 0).val / 5000 < cfg1.N := by rw [hN]; omega
  obtain ⟨e00, e01, e10, e11, e20, e21, e30, e31, e40, e41⟩ := idx1 ⟨(i 0).val / 5000, ht⟩
  refine ⟨⟨(i 0).val / 5000, ht⟩, flush1_4 _, ?_⟩
  rw [mem_blk1]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win1_4.index ⟨(i 0).val / 5000, ht⟩ (1 : Fin 2) * 64 ≤ (i 1).val
      ∧ (i 1).val < win1_4.index ⟨(i 0).val / 5000, ht⟩ (1 : Fin 2) * 64 + 64
    rw [e41]; omega

/-- After the region the result array is the clipped product of the arrays the region found. -/
theorem final1 (c : Dev nD) :
    (dat1 V c).arrAt 4 cfg1.N = clipped64 (V c main_v28) (V c main_v17) (V c main_v29) (V c main_arg6) :=
  (dat1 V c).arrAt_eq_of_cover 4 _ (fun t _ => flushed1 V c t) cover1

end Region1

/-- One entry of a block is the whole-array function at the entry's place in the array, once the block's loads are
    read at their places. -/
theorem block4 (v0 : Vec Ideal S5000x128 .f32) (v2 : Vec Ideal S5000x1 .f32) (v6 : Vec Ideal S1x128 .f32)
    (v13 : Vec Ideal S128x64 .f32)
    (Ag : S50000x128.Idx → EReal) (D : S50000x1.Idx → EReal) (Bv : S1x128.Idx → EReal) (Wt : S128x64.Idx → EReal)
    (p : Fin 5000) (q : Fin 64) (i : S50000x64.Idx)
    (ha : ∀ r : Fin 128, v0 (ix2 p r) = Ag (ix2 (i 0) r)) (hd : v2 (ix2 p (0 : Fin 1)) = D (ix2 (i 0) (0 : Fin 1)))
    (hb : ∀ r : Fin 128, v6 (ix2 (0 : Fin 1) r) = Bv (ix2 (0 : Fin 1) r))
    (hw : ∀ r : Fin 128, v13 (ix2 r q) = Wt (ix2 r (i 1))) :
    k4_pay1 (F := Ideal) v0 v2 v6 v13 v2 (ix2 p q) = clipped64 Ag D Bv Wt i := by
  rw [Payloads.clippedProduct64']
  unfold clipped64
  rw [hd]
  congr 1
  exact Finset.sum_congr rfl fun r _ => by rw [ha, hb, hw]

section Region4
variable (V : (c : Dev nD) → (b : Ref sig .tc) → Buf (Elt Ideal) ((c : Thread nD τ).loc b))

/-- The index maps over the ten grid points: the row-blocked windows sit at block row `t`, the bias row and the weight
    at block (0, 0). -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Point `t` writes back rows `5000 t … 5000 t + 4999` of the clipped product of the arrays the region finds. -/
theorem flushed4 (c : Dev nD) (t : Fin cfg4.N) :
    (dat4 V c).flushed 4 t = ((cfg4.win 4).blk t).view.read (Elt Ideal)
      (clipped64 (V c main_v71) (V c main_v60) (V c main_v72) (V c main_arg10)) := by
  show (cfg4.win 4).cut (grid4.coords t) ((dat4 V c).after 4 t) = _
  rw [after4_4]
  unfold out4_4
  rw [View.canon_unit_zero hzB]
  simp only [View.ld_unit_zero (S := S5000x128) hzB, View.ld_unit_zero (S := S5000x1) hzB, View.ld_unit_zero (S := S1x128) hzB,
    View.ld_unit_zero (S := S128x64) hzB]
  obtain ⟨e00, e01, e10, e11, e20, e21, e30, e31, e40, e41⟩ := idx4 t
  funext j
  show k4_pay1 (iblk4 V c 0 t) (iblk4 V c 1 t) (iblk4 V c 2 t) (iblk4 V c 3 t) (iblk4 V c 1 t) j
    = clipped64 (V c main_v71) (V c main_v60) (V c main_v72) (V c main_arg10) (((cfg4.win 4).blk t).view.emb j)
  refine (congrArg (k4_pay1 (iblk4 V c 0 t) (iblk4 V c 1 t) (iblk4 V c 2 t) (iblk4 V c 3 t) (iblk4 V c 1 t)) (eq_ix2 j)).trans ?_
  refine block4 (iblk4 V c 0 t) (iblk4 V c 1 t) (iblk4 V c 2 t) (iblk4 V c 3 t)
    (V c main_v71) (V c main_v60) (V c main_v72) (V c main_arg10) (j 0) (j 1) (((cfg4.win 4).blk t).view.emb j) ?_ ?_ ?_ ?_
  · intro r
    show V c main_v71 (((cfg4.win 0).blk t).view.emb (ix2 (j 0) r)) = V c main_v71 _
    congr 1
    funext a; apply Fin.ext
    match a with
    | ⟨0, _⟩ => show win4_0.index t (0 : Fin 2) * 5000 + 1 * (j 0).val = win4_4.index t (0 : Fin 2) * 5000 + 1 * (j 0).val; omega
    | ⟨1, _⟩ => show win4_0.index t (1 : Fin 2) * 128 + 1 * r.val = r.val; omega
  · show V c main_v60 (((cfg4.win 1).blk t).view.emb (ix2 (j 0) (0 : Fin 1))) = V c main_v60 _
    congr 1
    funext a; apply Fin.ext
    match a with
    | ⟨0, _⟩ => show win4_1.index t (0 : Fin 2) * 5000 + 1 * (j 0).val = win4_4.index t (0 : Fin 2) * 5000 + 1 * (j 0).val; omega
    | ⟨1, _⟩ => show win4_1.index t (1 : Fin 2) * 1 + 1 * 0 = 0; omega
  · intro r
    show V c main_v72 (((cfg4.win 2).blk t).view.emb (ix2 (0 : Fin 1) r)) = V c main_v72 _
    congr 1
    funext a; apply Fin.ext
    match a with
    | ⟨0, _⟩ => show win4_2.index t (0 : Fin 2) * 1 + 1 * 0 = 0; omega
    | ⟨1, _⟩ => show win4_2.index t (1 : Fin 2) * 128 + 1 * r.val = r.val; omega
  · intro r
    show V c main_arg10 (((cfg4.win 3).blk t).view.emb (ix2 r (j 1))) = V c main_arg10 _
    congr 1
    funext a; apply Fin.ext
    match a with
    | ⟨0, _⟩ => show win4_3.index t (0 : Fin 2) * 128 + 1 * r.val = r.val; omega
    | ⟨1, _⟩ => show win4_3.index t (1 : Fin 2) * 64 + 1 * (j 1).val = win4_4.index t (1 : Fin 2) * 64 + 1 * (j 1).val; omega

/-- An index of the result array is in point `t`'s block iff each coordinate is in the block's range. -/
theorem mem_blk4 (t : Fin cfg4.N) (i : S50000x64.Idx) :
    i ∈ ((cfg4.win 4).blk t).view.set ↔ ∀ a : Fin 2, win4_4.index t a * S5000x64.size a ≤ (i a).val
      ∧ (i a).val < win4_4.index t a * S5000x64.size a + S5000x64.size a := by
  show i ∈ ((View.whole main_v73).slice (win4_4.rect t)).set ↔ _
  rw [View.set_slice_whole, Rect.mem_set_unit]
  exact Iff.rfl

/-- Row `r` of the result is written by point `r / 5000`: the ten blocks tile the array. -/
theorem cover4 (i : S50000x64.Idx) :
    ∃ t : Fin cfg4.N, (cfg4.win 4).flush t = true ∧ i ∈ ((cfg4.win 4).blk t).view.set := by
  have hi0 : (i 0).val < 50000 := (i 0).isLt
  have hi1 : (i 1).val < 64 := (i 1).isLt
  have hN : cfg4.N = 10 := N_4
  have ht : (i 0).val / 5000 < cfg4.N := by rw [hN]; omega
  obtain ⟨e00, e01, e10, e11, e20, e21, e30, e31, e40, e41⟩ := idx4 ⟨(i 0).val / 5000, ht⟩
  refine ⟨⟨(i 0).val / 5000, ht⟩, flush4_4 _, ?_⟩
  rw [mem_blk4]
  intro a
  match a with
  | ⟨0, _⟩ =>
    show win4_4.index ⟨(i 0).val / 5000, ht⟩ (0 : Fin 2) * 5000 ≤ (i 0).val
      ∧ (i 0).val < win4_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win4_4.index ⟨(i 0).val / 5000, ht⟩ (1 : Fin 2) * 64 ≤ (i 1).val
      ∧ (i 1).val < win4_4.index ⟨(i 0).val / 5000, ht⟩ (1 : Fin 2) * 64 + 64
    rw [e41]; omega

/-- After the region the result array is the clipped product of the arrays the region found. -/
theorem final4 (c : Dev nD) :
    (dat4 V c).arrAt 4 cfg4.N = clipped64 (V c main_v71) (V c main_v60) (V c main_v72) (V c main_arg10) :=
  (dat4 V c).arrAt_eq_of_cover 4 _ (fun t _ => flushed4 V c t) cover4

end Region4

end Cert.KernelIdeal.ArraysB

end
-- ==== Proof.ScaledPlusBias.lean ====
/-
  The last kernel of a branch, as one whole-array function.

  Each grid point reads rows `5000 t … 5000 t + 4999` of the aggregated array and of the normalizer column and the whole
  bias row, and writes back the same rows of `a · d + b`. The ten row blocks tile the result.
-/
import proofs.«116244_j75265006895439_2_alg».proof.Proof.Gen.KernelIdeal.Frame
import proofs.«116244_j75265006895439_2_alg».proof.Proof.Payloads
import Idealize.ShloMosaic.Lib.Pipeline.Value
import Idealize.ShloMosaic.Lib.ValueIdx

set_option maxRecDepth 16384

noncomputable section

namespace Cert.KernelIdeal.ArraysC

open Cert.KernelIdeal Cert.KernelIdeal.Gen Idealize.ShloMosaic Idealize.ShloMosaic.TcCoe Idealize.ShloMosaic.ValueIdx Idealize.SL.Sem
open Idealize.ShloMosaic.Pipeline (Dat)

/-- Zero offsets, as a constant function. -/
theorem hzC : (![0, 0] : Fin 2 → Nat) = fun _ => 0 := funext fun a => by fin_cases a <;> rfl

/-- The aggregated rows scaled by the normalizer, the bias row added: one whole-array function. -/
def biased64 (a : S50000x64.Idx → EReal) (d : S50000x1.Idx → EReal) (b : S1x64.Idx → EReal) : S50000x64.Idx → EReal :=
  fun i => a (ix2 (i 0) (i 1)) * d (ix2 (i 0) (0 : Fin 1)) + b (ix2 (0 : Fin 1) (i 1))

/-- One entry of a block is the whole-array function at the entry's place in the array, once the block's loads are
    read at their places. -/
theorem block2 (v0 : Vec Ideal S5000x64 .f32) (v2 : Vec Ideal S5000x1 .f32) (v6 : Vec Ideal S1x64 .f32)
    (Ag : S50000x64.Idx → EReal) (D : S50000x1.Idx → EReal) (Bv : S1x64.Idx → EReal)
    (p : Fin 5000) (q : Fin 64) (i : S50000x64.Idx)
    (ha : v0 (ix2 p q) = Ag (ix2 (i 0) (i 1))) (hd : v2 (ix2 p (0 : Fin 1)) = D (ix2 (i 0) (0 : Fin 1)))
    (hb : v6 (ix2 (0 : Fin 1) q) = Bv (ix2 (0 : Fin 1) (i 1))) :
    k2_pay1 (F := Ideal) v0 v2 v6 (ix2 p q) = biased64 Ag D Bv i := by
  rw [Payloads.scaledPlusBias64]
  unfold biased64
  rw [ha, hd, hb]

section Region2
variable (V : (c : Dev nD) → (b : Ref sig .tc) → Buf (Elt Ideal) ((c : Thread nD τ).loc b))

/-- The index maps over the ten grid points: the row-blocked windows sit at block row `t`, the bias row at block (0, 0). -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Point `t` writes back rows `5000 t … 5000 t + 4999` of the scaled rows plus bias of the arrays the region finds. -/
theorem flushed2 (c : Dev nD) (t : Fin cfg2.N) :
    (dat2 V c).flushed 3 t = ((cfg2.win 3).blk t).view.read (Elt Ideal)
      (biased64 (V c main_v40) (V c main_v17) (V c main_v41)) := by
  show (cfg2.win 3).cut (grid2.coords t) ((dat2 V c).after 3 t) = _
  rw [after2_3]
  unfold out2_3
  rw [View.canon_unit_zero hzC]
  simp only [View.ld_unit_zero (S := S5000x64) hzC, View.ld_unit_zero (S := S5000x1) hzC, View.ld_unit_zero (S := S1x64) hzC]
  obtain ⟨e00, e01, e10, e11, e20, e21, e30, e31⟩ := idx2 t
  funext j
  show k2_pay1 (iblk2 V c 0 t) (iblk2 V c 1 t) (iblk2 V c 2 t) j
    = biased64 (V c main_v40) (V c main_v17) (V c main_v41) (((cfg2.win 3).blk t).view.emb j)
  refine (congrArg (k2_pay1 (iblk2 V c 0 t) (iblk2 V c 1 t) (iblk2 V c 2 t)) (eq_ix2 j)).trans ?_
  refine block2 (iblk2 V c 0 t) (iblk2 V c 1 t) (iblk2 V c 2 t) (V c main_v40) (V c main_v17) (V c main_v41) (j 0) (j 1)
    (((cfg2.win 3).blk t).view.emb j) ?_ ?_ ?_
  · show V c main_v40 (((cfg2.win 0).blk t).view.emb (ix2 (j 0) (j 1))) = V c main_v40 _
    congr 1
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 64 + 1 * (j 1).val = win2_3.index t (1 : Fin 2) * 64 + 1 * (j 1).val; omega
  · show V c main_v17 (((cfg2.win 1).blk t).view.emb (ix2 (j 0) (0 : Fin 1))) = V c main_v17 _
    congr 1
    funext a; apply Fin.ext
    match a with
    | ⟨0, _⟩ => show win2_1.index t (0 : Fin 2) * 5000 + 1 * (j 0).val = win2_3.index t (0 : Fin 2) * 5000 + 1 * (j 0).val; omega
    | ⟨1, _⟩ => show win2_1.index t (1 : Fin 2) * 1 + 1 * 0 = 0; omega
  · show V c main_v41 (((cfg2.win 2).blk t).view.emb (ix2 (0 : Fin 1) (j 1))) = V c main_v41 _
    congr 1
    funext a; apply Fin.ext
    match a with
    | ⟨0, _⟩ => show win2_2.index t (0 : Fin 2) * 1 + 1 * 0 = 0; omega
    | ⟨1, _⟩ => show win2_2.index t (1 : Fin 2) * 64 + 1 * (j 1).val = win2_3.index t (1 : Fin 2) * 64 + 1 * (j 1).val; omega

/-- An index of the result array is in point `t`'s block iff each coordinate is in the block's range. -/
theorem mem_blk2 (t : Fin cfg2.N) (i : S50000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v42).slice (win2_3.rect t)).set ↔ _
  rw [View.set_slice_whole, Rect.mem_set_unit]
  exact Iff.rfl

/-- Row `r` of the result is written by point `r / 5000`: the ten blocks tile the array. -/
theorem cover2 (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 10 := N_2
  have ht : (i 0).val / 5000 < cfg2.N := by rw [hN]; omega
  obtain ⟨e00, e01, e10, e11, e20, e21, e30, e31⟩ := idx2 ⟨(i 0).val / 5000, ht⟩
  refine ⟨⟨(i 0).val / 5000, ht⟩, flush2_3 _, ?_⟩
  rw [mem_blk2]
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win2_3.index ⟨(i 0).val / 5000, ht⟩ (1 : Fin 2) * 64 ≤ (i 1).val
      ∧ (i 1).val < win2_3.index ⟨(i 0).val / 5000, ht⟩ (1 : Fin 2) * 64 + 64
    rw [e31]; omega

/-- After the region the result array is the scaled rows plus bias of the arrays the region found. -/
theorem final2 (c : Dev nD) :
    (dat2 V c).arrAt 3 cfg2.N = biased64 (V c main_v40) (V c main_v17) (V c main_v41) :=
  (dat2 V c).arrAt_eq_of_cover 3 _ (fun t _ => flushed2 V c t) cover2

end Region2

/-- One entry of a block is the whole-array function at the entry's place in the array, once the block's loads are
    read at their places. -/
theorem block5 (v0 : Vec Ideal S5000x64 .f32) (v2 : Vec Ideal S5000x1 .f32) (v6 : Vec Ideal S1x64 .f32)
    (Ag : S50000x64.Idx → EReal) (D : S50000x1.Idx → EReal) (Bv : S1x64.Idx → EReal)
    (p : Fin 5000) (q : Fin 64) (i : S50000x64.Idx)
    (ha : v0 (ix2 p q) = Ag (ix2 (i 0) (i 1))) (hd : v2 (ix2 p (0 : Fin 1)) = D (ix2 (i 0) (0 : Fin 1)))
    (hb : v6 (ix2 (0 : Fin 1) q) = Bv (ix2 (0 : Fin 1) (i 1))) :
    k5_pay1 (F := Ideal) v0 v2 v6 (ix2 p q) = biased64 Ag D Bv i := by
  rw [Payloads.scaledPlusBias64']
  unfold biased64
  rw [ha, hd, hb]

section Region5
variable (V : (c : Dev nD) → (b : Ref sig .tc) → Buf (Elt Ideal) ((c : Thread nD τ).loc b))

/-- The index maps over the ten grid points: the row-blocked windows sit at block row `t`, the bias row at block (0, 0). -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Point `t` writes back rows `5000 t … 5000 t + 4999` of the scaled rows plus bias of the arrays the region finds. -/
theorem flushed5 (c : Dev nD) (t : Fin cfg5.N) :
    (dat5 V c).flushed 3 t = ((cfg5.win 3).blk t).view.read (Elt Ideal)
      (biased64 (V c main_v83) (V c main_v60) (V c main_v84)) := by
  show (cfg5.win 3).cut (grid5.coords t) ((dat5 V c).after 3 t) = _
  rw [after5_3]
  unfold out5_3
  rw [View.canon_unit_zero hzC]
  simp only [View.ld_unit_zero (S := S5000x64) hzC, View.ld_unit_zero (S := S5000x1) hzC, View.ld_unit_zero (S := S1x64) hzC]
  obtain ⟨e00, e01, e10, e11, e20, e21, e30, e31⟩ := idx5 t
  funext j
  show k5_pay1 (iblk5 V c 0 t) (iblk5 V c 1 t) (iblk5 V c 2 t) j
    = biased64 (V c main_v83) (V c main_v60) (V c main_v84) (((cfg5.win 3).blk t).view.emb j)
  refine (congrArg (k5_pay1 (iblk5 V c 0 t) (iblk5 V c 1 t) (iblk5 V c 2 t)) (eq_ix2 j)).trans ?_
  refine block5 (iblk5 V c 0 t) (iblk5 V c 1 t) (iblk5 V c 2 t) (V c main_v83) (V c main_v60) (V c main_v84) (j 0) (j 1)
    (((cfg5.win 3).blk t).view.emb j) ?_ ?_ ?_
  · show V c main_v83 (((cfg5.win 0).blk t).view.emb (ix2 (j 0) (j 1))) = V c main_v83 _
    congr 1
    funext a; apply Fin.ext
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 64 + 1 * (j 1).val = win5_3.index t (1 : Fin 2) * 64 + 1 * (j 1).val; omega
  · show V c main_v60 (((cfg5.win 1).blk t).view.emb (ix2 (j 0) (0 : Fin 1))) = V c main_v60 _
    congr 1
    funext a; apply Fin.ext
    match a with
    | ⟨0, _⟩ => show win5_1.index t (0 : Fin 2) * 5000 + 1 * (j 0).val = win5_3.index t (0 : Fin 2) * 5000 + 1 * (j 0).val; omega
    | ⟨1, _⟩ => show win5_1.index t (1 : Fin 2) * 1 + 1 * 0 = 0; omega
  · show V c main_v84 (((cfg5.win 2).blk t).view.emb (ix2 (0 : Fin 1) (j 1))) = V c main_v84 _
    congr 1
    funext a; apply Fin.ext
    match a with
    | ⟨0, _⟩ => show win5_2.index t (0 : Fin 2) * 1 + 1 * 0 = 0; omega
    | ⟨1, _⟩ => show win5_2.index t (1 : Fin 2) * 64 + 1 * (j 1).val = win5_3.index t (1 : Fin 2) * 64 + 1 * (j 1).val; omega

/-- An index of the result array is in point `t`'s block iff each coordinate is in the block's range. -/
theorem mem_blk5 (t : Fin cfg5.N) (i : S50000x64.Idx) :
    i ∈ ((cfg5.win 3).blk t).view.set ↔ ∀ a : Fin 2, win5_3.index t a * S5000x64.size a ≤ (i a).val
      ∧ (i a).val < win5_3.index t a * S5000x64.size a + S5000x64.size a := by
  show i ∈ ((View.whole main_v85).slice (win5_3.rect t)).set ↔ _
  rw [View.set_slice_whole, Rect.mem_set_unit]
  exact Iff.rfl

/-- Row `r` of the result is written by point `r / 5000`: the ten blocks tile the array. -/
theorem cover5 (i : S50000x64.Idx) :
    ∃ t : Fin cfg5.N, (cfg5.win 3).flush t = true ∧ i ∈ ((cfg5.win 3).blk t).view.set := by
  have hi0 : (i 0).val < 50000 := (i 0).isLt
  have hi1 : (i 1).val < 64 := (i 1).isLt
  have hN : cfg5.N = 10 := N_5
  have ht : (i 0).val / 5000 < cfg5.N := by rw [hN]; omega
  obtain ⟨e00, e01, e10, e11, e20, e21, e30, e31⟩ := idx5 ⟨(i 0).val / 5000, ht⟩
  refine ⟨⟨(i 0).val / 5000, ht⟩, flush5_3 _, ?_⟩
  rw [mem_blk5]
  intro a
  match a with
  | ⟨0, _⟩ =>
    show win5_3.index ⟨(i 0).val / 5000, ht⟩ (0 : Fin 2) * 5000 ≤ (i 0).val
      ∧ (i 0).val < win5_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win5_3.index ⟨(i 0).val / 5000, ht⟩ (1 : Fin 2) * 64 ≤ (i 1).val
      ∧ (i 1).val < win5_3.index ⟨(i 0).val / 5000, ht⟩ (1 : Fin 2) * 64 + 64
    rw [e31]; omega

/-- After the region the result array is the scaled rows plus bias of the arrays the region found. -/
theorem final5 (c : Dev nD) :
    (dat5 V c).arrAt 3 cfg5.N = biased64 (V c main_v83) (V c main_v60) (V c main_v84) :=
  (dat5 V c).arrAt_eq_of_cover 3 _ (fun t _ => flushed5 V c t) cover5

end Region5

end Cert.KernelIdeal.ArraysC

end
-- ==== Proof.LibMatrixLayout.lean ====
/-
  Small matrices' layout operations read at an index written by coordinates.  General lemmas: any element type, any
  extents.

  * a vector [a] reshaped to a column [a, 1];
  * a vector [b] broadcast in dimension 1 to a row [1, b], and [a] in dimension 0 to a column [a, 1];
  * a row [1, b] broadcast in dimensions (0, 1) to [a, b], and a column [a, 1] to [a, b];
  * a scalar broadcast to any shape;
  * two matrices [a, b] and [a, c] joined along their columns into [a, b + c], read in the left and the right part.
-/
import Idealize.ShloMosaic.Lib.Pipeline.Value
import Idealize.ShloMosaic.Lib.ValueIdx

namespace Cert.LibMatrixLayout

open Idealize.ShloMosaic Idealize.ShloMosaic.ValueIdx

variable {α : Type}

/-- A vector reshaped to a column reads, at (i, 0), the vector's entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A vector broadcast in dimension 1 to a row reads, at (0, j), the vector's entry j. -/
theorem bcast_b_1b_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A vector broadcast in dimension 0 to a column reads, at (i, 0), the vector's entry i. -/
theorem bcast_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A row broadcast in dimensions (0, 1) down the rows of [a, b] reads, at (i, j), the row's entry j. -/
theorem bcast_1b_ab_apply {a b : ℕ} (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) := by
  refine broadcastInDim_apply _ h x (ix2 i j) (ix2 (0 : Fin 1) j) fun ax => ?_
  match ax with
  | ⟨0, _⟩ => rfl
  | ⟨1, _⟩ =>
    show j.val = if b = 1 then 0 else j.val
    split
    · have := j.isLt; omega
    · rfl

/-- A column broadcast in dimensions (0, 1) along the rows of [a, b] reads, at (i, j), the column's entry i. -/
theorem bcast_a1_ab_apply {a b : ℕ} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ => rfl

/-- A scalar broadcast to any shape reads the scalar everywhere. -/
theorem bcast_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- Two matrices joined along their columns read, in the first b columns, the left one. -/
theorem concat_cols_left {a b c n : ℕ} (x₁ : (⟨2, ![a, b]⟩ : Shape).Idx → α) (x₂ : (⟨2, ![a, c]⟩ : Shape).Idx → α)
    (h : Shape.Concatenates [(⟨2, ![a, b]⟩ : Shape), ⟨2, ![a, c]⟩] ⟨2, ![a, n]⟩ (1 : Fin 2)) (i : Fin a) (q : Fin b)
    (k : Fin n) (hk : k.val = q.val) :
    concatenate ⟨2, ![a, n]⟩ (1 : Fin 2) [⟨⟨2, ![a, b]⟩, x₁⟩, ⟨⟨2, ![a, c]⟩, x₂⟩] h (ix2 i k) = x₁ (ix2 i q) := by
  refine concatenate_pair_apply_left (1 : Fin 2) x₁ x₂ h (ix2 i k) rfl (ix2 i q) fun ax => ?_
  match ax with
  | ⟨0, _⟩ => rfl
  | ⟨1, _⟩ => exact hk.symm

/-- Two matrices joined along their columns read, past the first b columns, the right one. -/
theorem concat_cols_right {a b c n : ℕ} (x₁ : (⟨2, ![a, b]⟩ : Shape).Idx → α) (x₂ : (⟨2, ![a, c]⟩ : Shape).Idx → α)
    (h : Shape.Concatenates [(⟨2, ![a, b]⟩ : Shape), ⟨2, ![a, c]⟩] ⟨2, ![a, n]⟩ (1 : Fin 2)) (i : Fin a) (q : Fin c)
    (k : Fin n) (hk : k.val = b + q.val) :
    concatenate ⟨2, ![a, n]⟩ (1 : Fin 2) [⟨⟨2, ![a, b]⟩, x₁⟩, ⟨⟨2, ![a, c]⟩, x₂⟩] h (ix2 i k) = x₂ (ix2 i q) := by
  refine concatenate_pair_apply_right (1 : Fin 2) x₁ x₂ h (ix2 i k) rfl rfl (ix2 i q) (fun ax hax => ?_) ?_
  · match ax with
    | ⟨0, _⟩ => rfl
    | ⟨1, _⟩ => exact absurd rfl hax
  · show q.val + b = k.val
    omega

end Cert.LibMatrixLayout
-- ==== Proof.LibVectorAsRow.lean ====
/-
  A vector `[b]` reshaped to a row `[1, b]`, read at an index written by coordinates: entry (0, j) of the row is the
  vector's entry j. General lemma: any element type, any extent.
-/
import Idealize.ShloMosaic.Lib.Pipeline.Value
import Idealize.ShloMosaic.Lib.ValueIdx

namespace Cert.LibVectorAsRow

open Idealize.ShloMosaic Idealize.ShloMosaic.ValueIdx

/-- A vector reshaped to a row reads, at (0, j), the vector's entry j. -/
theorem shapeCast_b_1b_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu]; omega)

end Cert.LibVectorAsRow
-- ==== Proof.BranchForms.lean ====
/-
  Two stacked normalized aggregations, composed the reference's way and the kernel's way, are one function.

  Over abstract data — a feature matrix `x`, weights and biases of two layers, a normalizer vector `dis`, and three
  integer columns naming for each edge the row it reads (`srcN`), the row it lands on (`dstC`) and the landing row
  wrapped for reading (`dstN`) — the reference computes, per layer,
      add rows of (h gathered by srcN) · (dis[srcN] · dis[dstN]) into dstC, plus the bias,
  with `h = input · weight`, a clip at zero between the layers; the kernel computes
      (add rows of ((h · dis) gathered by srcN) into dstC) · dis, plus the bias,
  with the clip and the second product fused. Layer by layer these agree by the aggregation law; the clip, the
  bias and the products are the same operations on equal operands.
-/
import proofs.«116244_j75265006895439_2_alg».proof.Proof.AggregationLaw
import proofs.«116244_j75265006895439_2_alg».proof.Proof.ScaledProduct
import proofs.«116244_j75265006895439_2_alg».proof.Proof.ClippedProduct
import proofs.«116244_j75265006895439_2_alg».proof.Proof.ScaledPlusBias
import proofs.«116244_j75265006895439_2_alg».proof.Proof.LibPlainDot
import proofs.«116244_j75265006895439_2_alg».proof.Proof.LibMatrixLayout
import proofs.«116244_j75265006895439_2_alg».proof.Proof.LibVectorAsRow
import proofs.«116244_j75265006895439_2_alg».proof.Proof.Gen.ReferenceIdeal

set_option maxRecDepth 16384

noncomputable section

open Idealize.ShloMosaic Idealize.ShloMosaic.ValueIdx

/-! ## The reference's composition -/

namespace Cert.ReferenceIdeal.Form

open Cert.ReferenceIdeal Cert.ReferenceIdeal.Gen

/-- The row each edge reads: the first row of the edge list, then one self-loop per node. -/
def srcVec (ei : IVec S2x800000 32) : IVec S850000 32 :=
  concatenate S850000 0 [⟨S800000, shapeCast S800000 (extractStridedSlice S1x800000 ![0, 0] ei slices_S2x800000_S1x800000_0_0) shapeCasts_S1x800000_S800000⟩,
    ⟨S50000, iotaInDim S50000 32 0⟩] concatenates_S800000_S50000_S850000_d0

/-- The row each edge lands on: the second row of the edge list, then one self-loop per node. -/
def dstVec (ei : IVec S2x800000 32) : IVec S850000 32 :=
  concatenate S850000 0 [⟨S800000, shapeCast S800000 (extractStridedSlice S1x800000 ![1, 0] ei slices_S2x800000_S1x800000_1_0) shapeCasts_S1x800000_S800000⟩,
    ⟨S50000, iotaInDim S50000 32 0⟩] concatenates_S800000_S50000_S850000_d0

/-- A vector of row numbers as a column of start indices. -/
def rawCol (v : IVec S850000 32) : IVec S850000x1 32 := broadcastInDim S850000x1 ![0] bcast_S850000_S850000x1_0 v

/-- The same with negative row numbers wrapped around once (`x < 0 ? x + 50000 : x`), as reads do. -/
def wrapCol (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- The in-degree with self-loops: ones added into the landing rows. -/
def degree (dst : IVec S850000 32) : FVec Ideal S50000 .f32 :=
  Host.scatterAdd scatter_S50000_S850000x1_S850000_n_0_0_1
    (broadcastInDim S50000 ![] bcast_S_S50000 (constant (F := Ideal) S_ .f32 0x00000000#32)) (rawCol dst)
    (broadcastInDim S850000 ![] bcast_S_S850000 (constant (F := Ideal) S_ .f32 0x3F800000#32))

/-- The normalizer: `rsqrt (max deg ε)` where the degree is positive, else zero. -/
def normalizer (deg : FVec Ideal S50000 .f32) : FVec Ideal S50000 .f32 :=
  select (cmpf .ogt deg (broadcastInDim S50000 ![] bcast_S_S50000 (constant (F := Ideal) S_ .f32 0x00000000#32)))
    (Host.rsqrt (maximumf deg (broadcastInDim S50000 ![] bcast_S_S50000 (constant (F := Ideal) S_ .f32 0x2B8CBCCC#32))))
    (broadcastInDim S50000 ![] bcast_S_S50000 (id (constant (F := Ideal) S_ .f32 0x00000000#32)))

/-- The weight of each edge: the normalizer at the row it reads times the normalizer at the row it lands on. -/
def edgeWeight (dis : FVec Ideal S50000 .f32) (srcN dstN : IVec S850000x1 32) : FVec Ideal S850000 .f32 :=
  mulf (Host.gather gather_S50000_S850000x1_S850000_n_0_n_n_0_1_1 dis srcN)
    (Host.gather gather_S50000_S850000x1_S850000_n_0_n_n_0_1_1 dis dstN)

/-- One aggregation over 128 columns: gathered rows times the edge weights, added into the landing rows. -/
def agg128 (h : FVec Ideal S50000x128 .f32) (dis : FVec Ideal S50000 .f32) (srcN dstN dstC : IVec S850000x1 32) :
    FVec Ideal S50000x128 .f32 :=
  Host.scatterAdd scatter_S50000x128_S850000x1_S850000x128_1_0_0_1
    (broadcastInDim S50000x128 ![] bcast_S_S50000x128 (constant (F := Ideal) S_ .f32 0x00000000#32)) dstC
    (mulf (Host.gather gather_S50000x128_S850000x1_S850000x128_1_0_n_n_0_1_1128 h srcN)
      (broadcastInDim S850000x128 ![0, 1] bcast_S850000x1_S850000x128_0_1
        (broadcastInDim S850000x1 ![0] bcast_S850000_S850000x1_0 (edgeWeight dis srcN dstN))))

/-- One aggregation over 64 columns. -/
def agg64 (h : FVec Ideal S50000x64 .f32) (dis : FVec Ideal S50000 .f32) (srcN dstN dstC : IVec S850000x1 32) :
    FVec Ideal S50000x64 .f32 :=
  Host.scatterAdd scatter_S50000x64_S850000x1_S850000x64_1_0_0_1
    (broadcastInDim S50000x64 ![] bcast_S_S50000x64 (constant (F := Ideal) S_ .f32 0x00000000#32)) dstC
    (mulf (Host.gather gather_S50000x64_S850000x1_S850000x64_1_0_n_n_0_1_164 h srcN)
      (broadcastInDim S850000x64 ![0, 1] bcast_S850000x1_S850000x64_0_1
        (broadcastInDim S850000x1 ![0] bcast_S850000_S850000x1_0 (edgeWeight dis srcN dstN))))

/-- The first layer's output, clipped at zero. -/
def hidden (x : FVec Ideal S50000x128 .f32) (w1 : FVec Ideal S128x128 .f32) (b1 : FVec Ideal S128 .f32)
    (dis : FVec Ideal S50000 .f32) (srcN dstN dstC : IVec S850000x1 32) : FVec Ideal S50000x128 .f32 :=
  maximumf
    (addf (agg128 (Host.dotGeneral dot_S50000x128_S128x128_S50000x128_1_0_0_1_n_n none x w1) dis srcN dstN dstC)
      (broadcastInDim S50000x128 ![0, 1] bcast_S1x128_S50000x128_0_1 (broadcastInDim S1x128 ![1] bcast_S128_S1x128_1 b1)))
    (broadcastInDim S50000x128 ![] bcast_S_S50000x128 (constant (F := Ideal) S_ .f32 0x00000000#32))

/-- The two layers. -/
def branch (x : FVec Ideal S50000x128 .f32) (w1 : FVec Ideal S128x128 .f32) (b1 : FVec Ideal S128 .f32)
    (w2 : FVec Ideal S128x64 .f32) (b2 : FVec Ideal S64 .f32)
    (dis : FVec Ideal S50000 .f32) (srcN dstN dstC : IVec S850000x1 32) : FVec Ideal S50000x64 .f32 :=
  addf
    (agg64 (Host.dotGeneral dot_S50000x128_S128x64_S50000x64_1_0_0_1_n_n none (hidden x w1 b1 dis srcN dstN dstC) w2)
      dis srcN dstN dstC)
    (broadcastInDim S50000x64 ![0, 1] bcast_S1x64_S50000x64_0_1 (broadcastInDim S1x64 ![1] bcast_S64_S1x64_1 b2))

end Cert.ReferenceIdeal.Form

/-! ## The kernel's composition -/

namespace Cert.KernelIdeal.Form

open Cert.KernelIdeal Cert.KernelIdeal.Gen

/-- Rows gathered by `srcN` and added into the rows `dstC` names, 128 columns. -/
def sum128 (hs : FVec Ideal S50000x128 .f32) (srcN dstC : IVec S850000x1 32) : FVec Ideal S50000x128 .f32 :=
  Host.scatterAdd scatter_S50000x128_S850000x1_S850000x128_1_0_0_1
    (broadcastInDim S50000x128 ![] bcast_S_S50000x128 (constant (F := Ideal) S_ .f32 0x00000000#32)) dstC
    (Host.gather gather_S50000x128_S850000x1_S850000x128_1_0_n_n_0_1_1128 hs srcN)

/-- Rows gathered by `srcN` and added into the rows `dstC` names, 64 columns. -/
def sum64 (hs : FVec Ideal S50000x64 .f32) (srcN dstC : IVec S850000x1 32) : FVec Ideal S50000x64 .f32 :=
  Host.scatterAdd scatter_S50000x64_S850000x1_S850000x64_1_0_0_1
    (broadcastInDim S50000x64 ![] bcast_S_S50000x64 (constant (F := Ideal) S_ .f32 0x00000000#32)) dstC
    (Host.gather gather_S50000x64_S850000x1_S850000x64_1_0_n_n_0_1_164 hs srcN)

/-- The three kernels of a branch with the two row sums between them. -/
def branch (x : FVec Ideal S50000x128 .f32) (w1 : FVec Ideal S128x128 .f32) (b1 : FVec Ideal S128 .f32)
    (w2 : FVec Ideal S128x64 .f32) (b2 : FVec Ideal S64 .f32)
    (disCol : FVec Ideal S50000x1 .f32) (srcN dstC : IVec S850000x1 32) : FVec Ideal S50000x64 .f32 :=
  ArraysC.biased64
    (sum64 (ArraysB.clipped64 (sum128 (Arrays.scaled128 x w1 disCol) srcN dstC) disCol
      (shapeCast S1x128 b1 shapeCasts_S128_S1x128) w2) srcN dstC)
    disCol (shapeCast S1x64 b2 shapeCasts_S64_S1x64)

end Cert.KernelIdeal.Form

/-! ## They agree -/

namespace Cert.Bridge

open Cert.Aggregation Cert.Lib.RowIndex

section
variable (x : FVec Ideal ⟨2, ![50000, 128]⟩ .f32) (w1 : FVec Ideal ⟨2, ![128, 128]⟩ .f32) (b1 : FVec Ideal ⟨1, ![128]⟩ .f32)
  (w2 : FVec Ideal ⟨2, ![128, 64]⟩ .f32) (b2 : FVec Ideal ⟨1, ![64]⟩ .f32)
  (dis : FVec Ideal ⟨1, ![50000]⟩ .f32) (srcN dstN dstC : IVec ⟨2, ![850000, 1]⟩ 32)

/-- The reference's edge weight, broadcast over 128 columns, at an entry. -/
theorem weight128_apply (e : Fin 850000) (c : Fin 128) :
    (broadcastInDim Cert.ReferenceIdeal.S850000x128 ![0, 1] Cert.ReferenceIdeal.Gen.bcast_S850000x1_S850000x128_0_1
      (broadcastInDim Cert.ReferenceIdeal.S850000x1 ![0] Cert.ReferenceIdeal.Gen.bcast_S850000_S850000x1_0
        (Cert.ReferenceIdeal.Form.edgeWeight dis srcN dstN))) (ix2 e c)
      = dis (ix1 (clampRow (N := 50000) (by decide) srcN e)) * dis (ix1 (clampRow (N := 50000) (by decide) dstN e)) := by
  rw [Cert.LibMatrixLayout.bcast_a1_ab_apply, Cert.LibMatrixLayout.bcast_a_a1_apply]
  unfold Cert.ReferenceIdeal.Form.edgeWeight
  rw [mulf_apply]
  exact congrArg₂ (· * ·)
    (vecGather_apply (N := 50000) (E := 850000) (by decide) Cert.ReferenceIdeal.gather_S50000_S850000x1_S850000_n_0_n_n_0_1_1.wf dis srcN e)
    (vecGather_apply (N := 50000) (E := 850000) (by decide) Cert.ReferenceIdeal.gather_S50000_S850000x1_S850000_n_0_n_n_0_1_1.wf dis dstN e)

/-- The reference's edge weight, broadcast over 64 columns, at an entry. -/
theorem weight64_apply (e : Fin 850000) (c : Fin 64) :
    (broadcastInDim Cert.ReferenceIdeal.S850000x64 ![0, 1] Cert.ReferenceIdeal.Gen.bcast_S850000x1_S850000x64_0_1
      (broadcastInDim Cert.ReferenceIdeal.S850000x1 ![0] Cert.ReferenceIdeal.Gen.bcast_S850000_S850000x1_0
        (Cert.ReferenceIdeal.Form.edgeWeight dis srcN dstN))) (ix2 e c)
      = dis (ix1 (clampRow (N := 50000) (by decide) srcN e)) * dis (ix1 (clampRow (N := 50000) (by decide) dstN e)) := by
  rw [Cert.LibMatrixLayout.bcast_a1_ab_apply, Cert.LibMatrixLayout.bcast_a_a1_apply]
  unfold Cert.ReferenceIdeal.Form.edgeWeight
  rw [mulf_apply]
  exact congrArg₂ (· * ·)
    (vecGather_apply (N := 50000) (E := 850000) (by decide) Cert.ReferenceIdeal.gather_S50000_S850000x1_S850000_n_0_n_n_0_1_1.wf dis srcN e)
    (vecGather_apply (N := 50000) (E := 850000) (by decide) Cert.ReferenceIdeal.gather_S50000_S850000x1_S850000_n_0_n_n_0_1_1.wf dis dstN e)

/-- A zero splat is zero everywhere. -/
theorem zeros_apply {t : Shape} (h : (⟨0, ![]⟩ : Shape).BroadcastsInDim t ![]) (j : t.Idx) :
    broadcastInDim t ![] h (constant (F := Ideal) ⟨0, ![]⟩ .f32 0x00000000#32) j = 0 := by
  rw [Cert.LibMatrixLayout.bcast_scalar_apply]
  exact Ideal.ofBits_zero_f32

/-- The normalizer is nonnegative and never `+∞`, whatever the degree. -/
theorem normalizer_apply_bounds (deg : FVec Ideal ⟨1, ![50000]⟩ .f32) (n : (⟨1, ![50000]⟩ : Shape).Idx) :
    0 ≤ Cert.ReferenceIdeal.Form.normalizer deg n ∧ Cert.ReferenceIdeal.Form.normalizer deg n ≠ ⊤ := by
  unfold Cert.ReferenceIdeal.Form.normalizer
  simp only [id_eq]
  rw [select_apply, cmpf_apply, zeros_apply]
  exact normalizer_bounds (deg n) _

/-- Where the landing row number is nonnegative, wrapping it for a read changes nothing. -/
theorem wrapCol_of_nonneg (v : IVec ⟨1, ![850000]⟩ 32) (e : Fin 850000)
    (h : 0 ≤ (Cert.ReferenceIdeal.Form.rawCol v (ix2 e 0)).toInt) :
    Cert.ReferenceIdeal.Form.wrapCol v (ix2 e 0) = Cert.ReferenceIdeal.Form.rawCol v (ix2 e 0) := by
  unfold Cert.ReferenceIdeal.Form.rawCol at h ⊢
  unfold Cert.ReferenceIdeal.Form.wrapCol
  rw [Cert.LibMatrixLayout.bcast_a_a1_apply] at h ⊢
  rw [Cert.LibMatrixLayout.bcast_a_a1_apply, select_apply]
  show Scalar.select (IntOp.cmpi .slt (v (ix1 e)) _) (IntOp.addi (v (ix1 e)) _) (v (ix1 e)) = v (ix1 e)
  rw [Cert.LibMatrixLayout.bcast_scalar_apply]
  exact wrap_of_nonneg _ _ h

variable (h0 : ∀ n, 0 ≤ dis n) (hT : ∀ n, dis n ≠ ⊤)
  (hrel : ∀ e, 0 ≤ (dstC (ix2 e 0)).toInt → dstN (ix2 e 0) = dstC (ix2 e 0))
include h0 hT hrel

/-- LAYER ONE: the kernel's row sum of the scaled product, scaled again, is the reference's weighted aggregation. -/
theorem layer1 (n : Fin 50000) (r : Fin 128) :
    Cert.KernelIdeal.Form.sum128
        (Cert.KernelIdeal.Arrays.scaled128 x w1 (shapeCast Cert.KernelIdeal.S50000x1 dis Cert.KernelIdeal.Gen.shapeCasts_S50000_S50000x1))
        srcN dstC (ix2 n r) * dis (ix1 n)
      = Cert.ReferenceIdeal.Form.agg128
          (Host.dotGeneral Cert.ReferenceIdeal.dot_S50000x128_S128x128_S50000x128_1_0_0_1_n_n none x w1) dis srcN dstN dstC (ix2 n r) :=
  layer (N := 50000) (C := 128) (E := 850000) (by decide)
    Cert.ReferenceIdeal.scatter_S50000x128_S850000x1_S850000x128_1_0_0_1.wf
    Cert.ReferenceIdeal.gather_S50000x128_S850000x1_S850000x128_1_0_n_n_0_1_1128.wf
    (Host.dotGeneral Cert.ReferenceIdeal.dot_S50000x128_S128x128_S50000x128_1_0_0_1_n_n none x w1)
    (Cert.KernelIdeal.Arrays.scaled128 x w1 (shapeCast Cert.KernelIdeal.S50000x1 dis Cert.KernelIdeal.Gen.shapeCasts_S50000_S50000x1))
    _ (fun k => dis (ix1 k))
    (fun k q => by
      show (∑ p : Fin 128, x (ix2 k p) * w1 (ix2 p q)) * (shapeCast Cert.KernelIdeal.S50000x1 dis Cert.KernelIdeal.Gen.shapeCasts_S50000_S50000x1) (ix2 k (0 : Fin 1)) = _
      rw [Cert.LibMatrixLayout.shapeCast_a_a1_apply, Cert.PlainDot.dotGeneral_ix2 Cert.ReferenceIdeal.dot_S50000x128_S128x128_S50000x128_1_0_0_1_n_n rfl])
    (fun k => h0 _) (fun k => hT _) (fun i => zeros_apply _ i) srcN dstN dstC hrel _
    (fun e c => weight128_apply dis srcN dstN e c) n r

/-- BETWEEN THE LAYERS: the reference's first layer, bias added and clipped at zero, is the kernel's scaled row sum
    with the same bias and clip. -/
theorem hidden_apply (n : Fin 50000) (r : Fin 128) :
    Cert.ReferenceIdeal.Form.hidden x w1 b1 dis srcN dstN dstC (ix2 n r)
      = max (Cert.KernelIdeal.Form.sum128
            (Cert.KernelIdeal.Arrays.scaled128 x w1 (shapeCast Cert.KernelIdeal.S50000x1 dis Cert.KernelIdeal.Gen.shapeCasts_S50000_S50000x1))
            srcN dstC (ix2 n r) * dis (ix1 n) + b1 (ix1 r)) (Ideal.ofBits .f32 0x00000000#32) := by
  unfold Cert.ReferenceIdeal.Form.hidden
  rw [maximumf_apply, addf_apply, ← layer1 x w1 dis srcN dstN dstC h0 hT hrel n r, Cert.LibMatrixLayout.bcast_1b_ab_apply,
    Cert.LibMatrixLayout.bcast_b_1b_apply, Cert.LibMatrixLayout.bcast_scalar_apply]
  rfl

/-- LAYER TWO: the kernel's row sum of the clipped product, scaled again, is the reference's weighted aggregation of
    the second product. -/
theorem layer2 (i : Fin 50000) (c : Fin 64) :
    Cert.KernelIdeal.Form.sum64
        (Cert.KernelIdeal.ArraysB.clipped64
          (Cert.KernelIdeal.Form.sum128
            (Cert.KernelIdeal.Arrays.scaled128 x w1 (shapeCast Cert.KernelIdeal.S50000x1 dis Cert.KernelIdeal.Gen.shapeCasts_S50000_S50000x1))
            srcN dstC)
          (shapeCast Cert.KernelIdeal.S50000x1 dis Cert.KernelIdeal.Gen.shapeCasts_S50000_S50000x1)
          (shapeCast Cert.KernelIdeal.S1x128 b1 Cert.KernelIdeal.Gen.shapeCasts_S128_S1x128) w2)
        srcN dstC (ix2 i c) * dis (ix1 i)
      = Cert.ReferenceIdeal.Form.agg64
          (Host.dotGeneral Cert.ReferenceIdeal.dot_S50000x128_S128x64_S50000x64_1_0_0_1_n_n none
            (Cert.ReferenceIdeal.Form.hidden x w1 b1 dis srcN dstN dstC) w2) dis srcN dstN dstC (ix2 i c) :=
  layer (N := 50000) (C := 64) (E := 850000) (by decide)
    Cert.ReferenceIdeal.scatter_S50000x64_S850000x1_S850000x64_1_0_0_1.wf
    Cert.ReferenceIdeal.gather_S50000x64_S850000x1_S850000x64_1_0_n_n_0_1_164.wf
    (Host.dotGeneral Cert.ReferenceIdeal.dot_S50000x128_S128x64_S50000x64_1_0_0_1_n_n none
      (Cert.ReferenceIdeal.Form.hidden x w1 b1 dis srcN dstN dstC) w2)
    (Cert.KernelIdeal.ArraysB.clipped64
      (Cert.KernelIdeal.Form.sum128
        (Cert.KernelIdeal.Arrays.scaled128 x w1 (shapeCast Cert.KernelIdeal.S50000x1 dis Cert.KernelIdeal.Gen.shapeCasts_S50000_S50000x1))
        srcN dstC)
      (shapeCast Cert.KernelIdeal.S50000x1 dis Cert.KernelIdeal.Gen.shapeCasts_S50000_S50000x1)
      (shapeCast Cert.KernelIdeal.S1x128 b1 Cert.KernelIdeal.Gen.shapeCasts_S128_S1x128) w2)
    _ (fun k => dis (ix1 k))
    (fun k q => by
      show (∑ r : Fin 128,
          max (Cert.KernelIdeal.Form.sum128
                (Cert.KernelIdeal.Arrays.scaled128 x w1 (shapeCast Cert.KernelIdeal.S50000x1 dis Cert.KernelIdeal.Gen.shapeCasts_S50000_S50000x1))
                srcN dstC (ix2 k r)
              * (shapeCast Cert.KernelIdeal.S50000x1 dis Cert.KernelIdeal.Gen.shapeCasts_S50000_S50000x1) (ix2 k (0 : Fin 1))
              + (shapeCast Cert.KernelIdeal.S1x128 b1 Cert.KernelIdeal.Gen.shapeCasts_S128_S1x128) (ix2 (0 : Fin 1) r))
            (Ideal.ofBits .f32 0x00000000#32) * w2 (ix2 r q))
          * (shapeCast Cert.KernelIdeal.S50000x1 dis Cert.KernelIdeal.Gen.shapeCasts_S50000_S50000x1) (ix2 k (0 : Fin 1)) = _
      rw [Cert.PlainDot.dotGeneral_ix2 Cert.ReferenceIdeal.dot_S50000x128_S128x64_S50000x64_1_0_0_1_n_n rfl]
      refine congrArg₂ (· * ·) (Finset.sum_congr rfl fun r _ => ?_) (Cert.LibMatrixLayout.shapeCast_a_a1_apply dis _ k 0)
      rw [hidden_apply x w1 b1 dis srcN dstN dstC h0 hT hrel k r, Cert.LibMatrixLayout.shapeCast_a_a1_apply,
        Cert.LibVectorAsRow.shapeCast_b_1b_apply])
    (fun k => h0 _) (fun k => hT _) (fun i => zeros_apply _ i) srcN dstN dstC hrel _
    (fun e c => weight64_apply dis srcN dstN e c) i c

/-- THE TWO COMPOSITIONS AGREE, entry by entry. -/
theorem branch_eq :
    Cert.ReferenceIdeal.Form.branch x w1 b1 w2 b2 dis srcN dstN dstC
      = Cert.KernelIdeal.Form.branch x w1 b1 w2 b2
          (shapeCast Cert.KernelIdeal.S50000x1 dis Cert.KernelIdeal.Gen.shapeCasts_S50000_S50000x1) srcN dstC := by
  funext idx
  obtain ⟨i, c, rfl⟩ : ∃ (i : Fin 50000) (c : Fin 64), idx = ix2 i c := ⟨idx 0, idx 1, eq_ix2 idx⟩
  unfold Cert.ReferenceIdeal.Form.branch Cert.KernelIdeal.Form.branch
  rw [addf_apply, ← layer2 x w1 b1 w2 dis srcN dstN dstC h0 hT hrel i c, Cert.LibMatrixLayout.bcast_1b_ab_apply,
    Cert.LibMatrixLayout.bcast_b_1b_apply]
  unfold Cert.KernelIdeal.ArraysC.biased64
  show _ = _ * (shapeCast Cert.KernelIdeal.S50000x1 dis Cert.KernelIdeal.Gen.shapeCasts_S50000_S50000x1) (ix2 i (0 : Fin 1))
    + (shapeCast Cert.KernelIdeal.S1x64 b2 Cert.KernelIdeal.Gen.shapeCasts_S64_S1x64) (ix2 (0 : Fin 1) c)
  rw [Cert.LibMatrixLayout.shapeCast_a_a1_apply, Cert.LibVectorAsRow.shapeCast_b_1b_apply]

end

end Cert.Bridge

end
-- ==== Proof.KernelChain.lean ====
/-
  The idealized kernel's two results as functions of the launch arguments.

  The program's buffers are followed from the launch through its sixteen segments. A host stretch rewrites the
  buffers its operations write and leaves the rest; a kernel launch leaves its output array at the whole-array
  function of the arrays it found and every other buffer as it was. Per branch: the reading and landing rows and the
  normalizer column are computed from the edge list before the first kernel; the first kernel leaves the scaled
  product; the next stretch gathers its rows and adds them into the landing rows; the second kernel leaves the clipped
  product; the next stretch sums again; the third kernel leaves the branch's result, which later segments do not
  touch. The second branch starts where the first ends, from arguments no earlier segment wrote.
-/
import proofs.«116244_j75265006895439_2_alg».proof.Proof.Gen.KernelIdeal.Frame
import proofs.«116244_j75265006895439_2_alg».proof.Proof.BranchForms
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg)

/-! ## Branch X -/

section BranchX

theorem entryX_main_arg0 (c : Dev nD) : V3 m ρ c main_arg0 = m ((c : Thread nD τ).loc main_arg0) := by
  show StableHlo.after hostOps0_2 (StableHlo.after hostOps0_1 (StableHlo.after hostOps0 (W0 m ρ c))) (Proc.devRef .tc main_arg0) = _
  after_results <;> first | rfl | rfl

theorem entryX_main_arg4 (c : Dev nD) : V3 m ρ c main_arg4 = m ((c : Thread nD τ).loc main_arg4) := by
  show StableHlo.after hostOps0_2 (StableHlo.after hostOps0_1 (StableHlo.after hostOps0 (W0 m ρ c))) (Proc.devRef .tc main_arg4) = _
  after_results <;> first | rfl | rfl

theorem entryX_main_arg5 (c : Dev nD) : V3 m ρ c main_arg5 = m ((c : Thread nD τ).loc main_arg5) := by
  show StableHlo.after hostOps0_2 (StableHlo.after hostOps0_1 (StableHlo.after hostOps0 (W0 m ρ c))) (Proc.devRef .tc main_arg5) = _
  after_results <;> first | rfl | rfl

theorem entryX_main_arg6 (c : Dev nD) : V3 m ρ c main_arg6 = m ((c : Thread nD τ).loc main_arg6) := by
  show StableHlo.after hostOps0_2 (StableHlo.after hostOps0_1 (StableHlo.after hostOps0 (W0 m ρ c))) (Proc.devRef .tc main_arg6) = _
  after_results <;> first | rfl | rfl

theorem entryX_main_arg7 (c : Dev nD) : V3 m ρ c main_arg7 = m ((c : Thread nD τ).loc main_arg7) := by
  show StableHlo.after hostOps0_2 (StableHlo.after hostOps0_1 (StableHlo.after hostOps0 (W0 m ρ c))) (Proc.devRef .tc main_arg7) = _
  after_results <;> first | rfl | rfl

/-- At the first kernel's entry the reading rows are the edge list's first row and the self-loops. -/
theorem entryX_src (c : Dev nD) : V3 m ρ c main_v5 = Cert.ReferenceIdeal.Form.srcVec (m ((c : Thread nD τ).loc main_arg1)) := by
  show StableHlo.after hostOps0_2 (StableHlo.after hostOps0_1 (StableHlo.after hostOps0 (W0 m ρ c))) (Proc.devRef .tc main_v5) = _
  after_results <;> rfl

/-- … the landing rows its second row and the self-loops. -/
theorem entryX_dst (c : Dev nD) : V3 m ρ c main_v6 = Cert.ReferenceIdeal.Form.dstVec (m ((c : Thread nD τ).loc main_arg1)) := by
  show StableHlo.after hostOps0_2 (StableHlo.after hostOps0_1 (StableHlo.after hostOps0 (W0 m ρ c))) (Proc.devRef .tc main_v6) = _
  after_results <;> rfl

set_option maxHeartbeats 4000000 in
/-- After the first stretch: where the degree is positive, … -/
theorem positiveX (c : Dev nD) : StableHlo.after hostOps0 (W0 m ρ c) (Proc.devRef .tc main_v12) = cmpf .ogt (Cert.ReferenceIdeal.Form.degree (Cert.ReferenceIdeal.Form.dstVec (m ((c : Thread nD τ).loc main_arg1)))) (broadcastInDim S50000 ![] bcast_S_S50000 (constant (F := Ideal) S_ .f32 0x00000000#32)) := by
  after_results <;> rfl

set_option maxHeartbeats 4000000 in
/-- … the reciprocal square root of the degree bounded below, … -/
theorem rsqrtDegX (c : Dev nD) : StableHlo.after hostOps0 (W0 m ρ c) (Proc.devRef .tc main_v15) = Host.rsqrt (maximumf (Cert.ReferenceIdeal.Form.degree (Cert.ReferenceIdeal.Form.dstVec (m ((c : Thread nD τ).loc main_arg1)))) (broadcastInDim S50000 ![] bcast_S_S50000 (constant (F := Ideal) S_ .f32 0x2B8CBCCC#32))) := by
  after_results <;> rfl

/-- … and the zero the selection falls back to. -/
theorem zeroScalarX (c : Dev nD) : StableHlo.after hostOps0 (W0 m ρ c) (Proc.devRef .tc main_cst_3) = constant (F := Ideal) S_ .f32 0x00000000#32 := by
  after_results <;> rfl

/-- The selection, from any buffer contents holding its three operands. -/
theorem selectX (Wv : Valuation τ sig (Elt Ideal)) (A : IVec S50000 1) (B : FVec Ideal S50000 .f32) (Cc : FVec Ideal S_ .f32)
    (hA : Wv (Proc.devRef .tc main_v12) = A) (hB : Wv (Proc.devRef .tc main_v15) = B) (hC : Wv (Proc.devRef .tc main_cst_3) = Cc) :
    StableHlo.after hostOps0_1 Wv (Proc.devRef .tc main_v16)
      = select A B (broadcastInDim S50000 ![] bcast_S_S50000 (id Cc)) := by
  after_results
  rw [hA, hB, hC]
  rfl

/-- The normalizer as a column, from any buffer contents holding the normalizer vector. -/
theorem columnX (Wv : Valuation τ sig (Elt Ideal)) (D : FVec Ideal S50000 .f32) (hD : Wv (Proc.devRef .tc main_v16) = D) :
    StableHlo.after hostOps0_2 Wv (Proc.devRef .tc main_v17) = shapeCast S50000x1 D shapeCasts_S50000_S50000x1 := by
  after_results
  rw [hD]
  rfl

/-- … and the normalizer column is the normalizer of the landing rows' degree, as a column. -/
theorem entryX_dis (c : Dev nD) : V3 m ρ c main_v17 = (shapeCast S50000x1 (Cert.ReferenceIdeal.Form.normalizer (Cert.ReferenceIdeal.Form.degree (Cert.ReferenceIdeal.Form.dstVec (m ((c : Thread nD τ).loc main_arg1))))) shapeCasts_S50000_S50000x1) :=
  (columnX (StableHlo.after hostOps0_1 (StableHlo.after hostOps0 (W0 m ρ c))) _
    (selectX (StableHlo.after hostOps0 (W0 m ρ c)) _ _ _ (positiveX m ρ c) (rsqrtDegX m ρ c) (zeroScalarX m ρ c))).trans rfl

/-- The first kernel leaves the scaled product. -/
theorem h1X (c : Dev nD) : V4 m ρ c main_v18
    = Arrays.scaled128 (m ((c : Thread nD τ).loc main_arg0)) (m ((c : Thread nD τ).loc main_arg4)) (shapeCast S50000x1 (Cert.ReferenceIdeal.Form.normalizer (Cert.ReferenceIdeal.Form.degree (Cert.ReferenceIdeal.Form.dstVec (m ((c : Thread nD τ).loc main_arg1))))) shapeCasts_S50000_S50000x1) := by
  refine (W4_arr m ρ c 3).trans ?_
  rw [Arrays.final0 (V3 m ρ) c, entryX_main_arg0, entryX_main_arg4, entryX_dis]

/-- What the first kernel does not write it leaves. -/
theorem keepX0_src (c : Dev nD) : V4 m ρ c main_v5 = Cert.ReferenceIdeal.Form.srcVec (m ((c : Thread nD τ).loc main_arg1)) :=
  (W4_of_ne m ρ c main_v5 (by decide)).trans (entryX_src m ρ c)
theorem keepX0_dst (c : Dev nD) : V4 m ρ c main_v6 = Cert.ReferenceIdeal.Form.dstVec (m ((c : Thread nD τ).loc main_arg1)) :=
  (W4_of_ne m ρ c main_v6 (by decide)).trans (entryX_dst m ρ c)
theorem keepX0_b1 (c : Dev nD) : V4 m ρ c main_arg5 = m ((c : Thread nD τ).loc main_arg5) :=
  (W4_of_ne m ρ c main_arg5 (by decide)).trans (entryX_main_arg5 m ρ c)
theorem keepX0_w2 (c : Dev nD) : V4 m ρ c main_arg6 = m ((c : Thread nD τ).loc main_arg6) :=
  (W4_of_ne m ρ c main_arg6 (by decide)).trans (entryX_main_arg6 m ρ c)
theorem keepX0_b2 (c : Dev nD) : V4 m ρ c main_arg7 = m ((c : Thread nD τ).loc main_arg7) :=
  (W4_of_ne m ρ c main_arg7 (by decide)).trans (entryX_main_arg7 m ρ c)
theorem keepX0_dis (c : Dev nD) : V4 m ρ c main_v17 = (shapeCast S50000x1 (Cert.ReferenceIdeal.Form.normalizer (Cert.ReferenceIdeal.Form.degree (Cert.ReferenceIdeal.Form.dstVec (m ((c : Thread nD τ).loc main_arg1))))) shapeCasts_S50000_S50000x1) :=
  ((W4_arr m ρ c 2).trans (((dat0 (V3 m ρ) c).arrAt_in 2 rfl _).trans (A_eq0 (V3 m ρ) c 2))).trans (entryX_dis m ρ c)

set_option maxHeartbeats 4000000 in
/-- The host stretch before the second kernel: the scaled product's rows gathered and added into the landing rows;
    the first bias as a row; the rest as it was. -/
theorem agg1X (c : Dev nD) : V5 m ρ c main_v28
    = Form.sum128 (Arrays.scaled128 (m ((c : Thread nD τ).loc main_arg0)) (m ((c : Thread nD τ).loc main_arg4)) (shapeCast S50000x1 (Cert.ReferenceIdeal.Form.normalizer (Cert.ReferenceIdeal.Form.degree (Cert.ReferenceIdeal.Form.dstVec (m ((c : Thread nD τ).loc main_arg1))))) shapeCasts_S50000_S50000x1))
        (Cert.ReferenceIdeal.Form.wrapCol (Cert.ReferenceIdeal.Form.srcVec (m ((c : Thread nD τ).loc main_arg1)))) (Cert.ReferenceIdeal.Form.rawCol (Cert.ReferenceIdeal.Form.dstVec (m ((c : Thread nD τ).loc main_arg1)))) := by
  show StableHlo.after hostOps1 (W4 m ρ c) (Proc.devRef .tc main_v28) = _
  after_results_simp
  rw [show W4 m ρ c (Proc.devRef .tc main_v18) = _ from h1X m ρ c,
    show W4 m ρ c (Proc.devRef .tc main_v5) = _ from keepX0_src m ρ c,
    show W4 m ρ c (Proc.devRef .tc main_v6) = _ from keepX0_dst m ρ c]
  rfl
theorem b1rowX (c : Dev nD) : V5 m ρ c main_v29 = shapeCast S1x128 (m ((c : Thread nD τ).loc main_arg5)) shapeCasts_S128_S1x128 := by
  show StableHlo.after hostOps1 (W4 m ρ c) (Proc.devRef .tc main_v29) = _
  after_results
  rw [show W4 m ρ c (Proc.devRef .tc main_arg5) = _ from keepX0_b1 m ρ c]
  rfl
theorem keepX1_dis (c : Dev nD) : V5 m ρ c main_v17 = (shapeCast S50000x1 (Cert.ReferenceIdeal.Form.normalizer (Cert.ReferenceIdeal.Form.degree (Cert.ReferenceIdeal.Form.dstVec (m ((c : Thread nD τ).loc main_arg1))))) shapeCasts_S50000_S50000x1) := by
  show StableHlo.after hostOps1 (W4 m ρ c) (Proc.devRef .tc main_v17) = _
  after_results <;> exact keepX0_dis m ρ c
theorem keepX1_w2 (c : Dev nD) : V5 m ρ c main_arg6 = m ((c : Thread nD τ).loc main_arg6) := by
  show StableHlo.after hostOps1 (W4 m ρ c) (Proc.devRef .tc main_arg6) = _
  after_results <;> exact keepX0_w2 m ρ c
theorem keepX1_b2 (c : Dev nD) : V5 m ρ c main_arg7 = m ((c : Thread nD τ).loc main_arg7) := by
  show StableHlo.after hostOps1 (W4 m ρ c) (Proc.devRef .tc main_arg7) = _
  after_results <;> exact keepX0_b2 m ρ c
theorem keepX1_src (c : Dev nD) : V5 m ρ c main_v5 = Cert.ReferenceIdeal.Form.srcVec (m ((c : Thread nD τ).loc main_arg1)) := by
  show StableHlo.after hostOps1 (W4 m ρ c) (Proc.devRef .tc main_v5) = _
  after_results <;> exact keepX0_src m ρ c
theorem keepX1_dst (c : Dev nD) : V5 m ρ c main_v6 = Cert.ReferenceIdeal.Form.dstVec (m ((c : Thread nD τ).loc main_arg1)) := by
  show StableHlo.after hostOps1 (W4 m ρ c) (Proc.devRef .tc main_v6) = _
  after_results <;> exact keepX0_dst m ρ c

/-- The second kernel leaves the clipped product. -/
theorem h2X (c : Dev nD) : V6 m ρ c main_v30
    = ArraysB.clipped64
        (Form.sum128 (Arrays.scaled128 (m ((c : Thread nD τ).loc main_arg0)) (m ((c : Thread nD τ).loc main_arg4)) (shapeCast S50000x1 (Cert.ReferenceIdeal.Form.normalizer (Cert.ReferenceIdeal.Form.degree (Cert.ReferenceIdeal.Form.dstVec (m ((c : Thread nD τ).loc main_arg1))))) shapeCasts_S50000_S50000x1))
          (Cert.ReferenceIdeal.Form.wrapCol (Cert.ReferenceIdeal.Form.srcVec (m ((c : Thread nD τ).loc main_arg1)))) (Cert.ReferenceIdeal.Form.rawCol (Cert.ReferenceIdeal.Form.dstVec (m ((c : Thread nD τ).loc main_arg1)))))
        (shapeCast S50000x1 (Cert.ReferenceIdeal.Form.normalizer (Cert.ReferenceIdeal.Form.degree (Cert.ReferenceIdeal.Form.dstVec (m ((c : Thread nD τ).loc main_arg1))))) shapeCasts_S50000_S50000x1) (shapeCast S1x128 (m ((c : Thread nD τ).loc main_arg5)) shapeCasts_S128_S1x128) (m ((c : Thread nD τ).loc main_arg6)) := by
  refine (W6_arr m ρ c 4).trans ?_
  rw [ArraysB.final1 (V5 m ρ) c, agg1X, keepX1_dis, b1rowX, keepX1_w2]
theorem keepX2_src (c : Dev nD) : V6 m ρ c main_v5 = Cert.ReferenceIdeal.Form.srcVec (m ((c : Thread nD τ).loc main_arg1)) :=
  (W6_of_ne m ρ c main_v5 (by decide)).trans (keepX1_src m ρ c)
theorem keepX2_dst (c : Dev nD) : V6 m ρ c main_v6 = Cert.ReferenceIdeal.Form.dstVec (m ((c : Thread nD τ).loc main_arg1)) :=
  (W6_of_ne m ρ c main_v6 (by decide)).trans (keepX1_dst m ρ c)
theorem keepX2_b2 (c : Dev nD) : V6 m ρ c main_arg7 = m ((c : Thread nD τ).loc main_arg7) :=
  (W6_of_ne m ρ c main_arg7 (by decide)).trans (keepX1_b2 m ρ c)
theorem keepX2_dis (c : Dev nD) : V6 m ρ c main_v17 = (shapeCast S50000x1 (Cert.ReferenceIdeal.Form.normalizer (Cert.ReferenceIdeal.Form.degree (Cert.ReferenceIdeal.Form.dstVec (m ((c : Thread nD τ).loc main_arg1))))) shapeCasts_S50000_S50000x1) :=
  ((W6_arr m ρ c 1).trans (((dat1 (V5 m ρ) c).arrAt_in 1 rfl _).trans (A_eq1 (V5 m ρ) c 1))).trans (keepX1_dis m ρ c)

set_option maxHeartbeats 4000000 in
/-- The host stretch before the third kernel: the clipped product's rows gathered and added into the landing rows;
    the second bias as a row. -/
theorem agg2X (c : Dev nD) : V7 m ρ c main_v40
    = Form.sum64 (V6 m ρ c main_v30) (Cert.ReferenceIdeal.Form.wrapCol (Cert.ReferenceIdeal.Form.srcVec (m ((c : Thread nD τ).loc main_arg1)))) (Cert.ReferenceIdeal.Form.rawCol (Cert.ReferenceIdeal.Form.dstVec (m ((c : Thread nD τ).loc main_arg1)))) := by
  show StableHlo.after hostOps2 (W6 m ρ c) (Proc.devRef .tc main_v40) = _
  after_results_simp
  rw [show W6 m ρ c (Proc.devRef .tc main_v5) = _ from keepX2_src m ρ c,
    show W6 m ρ c (Proc.devRef .tc main_v6) = _ from keepX2_dst m ρ c]
  rfl
theorem b2rowX (c : Dev nD) : V7 m ρ c main_v41 = shapeCast S1x64 (m ((c : Thread nD τ).loc main_arg7)) shapeCasts_S64_S1x64 := by
  show StableHlo.after hostOps2 (W6 m ρ c) (Proc.devRef .tc main_v41) = _
  after_results
  rw [show W6 m ρ c (Proc.devRef .tc main_arg7) = _ from keepX2_b2 m ρ c]
  rfl
theorem keepX3_dis (c : Dev nD) : V7 m ρ c main_v17 = (shapeCast S50000x1 (Cert.ReferenceIdeal.Form.normalizer (Cert.ReferenceIdeal.Form.degree (Cert.ReferenceIdeal.Form.dstVec (m ((c : Thread nD τ).loc main_arg1))))) shapeCasts_S50000_S50000x1) := by
  show StableHlo.after hostOps2 (W6 m ρ c) (Proc.devRef .tc main_v17) = _
  after_results <;> exact keepX2_dis m ρ c

/-- The third kernel leaves the branch's result: the kernel's composition of the launch arguments. -/
theorem outX (c : Dev nD) : V8 m ρ c main_v42
    = Form.branch (m ((c : Thread nD τ).loc main_arg0)) (m ((c : Thread nD τ).loc main_arg4)) (m ((c : Thread nD τ).loc main_arg5)) (m ((c : Thread nD τ).loc main_arg6)) (m ((c : Thread nD τ).loc main_arg7))
        (shapeCast S50000x1 (Cert.ReferenceIdeal.Form.normalizer (Cert.ReferenceIdeal.Form.degree (Cert.ReferenceIdeal.Form.dstVec (m ((c : Thread nD τ).loc main_arg1))))) shapeCasts_S50000_S50000x1) (Cert.ReferenceIdeal.Form.wrapCol (Cert.ReferenceIdeal.Form.srcVec (m ((c : Thread nD τ).loc main_arg1)))) (Cert.ReferenceIdeal.Form.rawCol (Cert.ReferenceIdeal.Form.dstVec (m ((c : Thread nD τ).loc main_arg1)))) := by
  refine (W8_arr m ρ c 3).trans ?_
  rw [ArraysC.final2 (V7 m ρ) c, agg2X, h2X, keepX3_dis, b2rowX]
  rfl

end BranchX

/-! ## Between the branches: the second branch's arguments are still as launched -/

theorem base8_main_arg2 (c : Dev nD) : W8 m ρ c (Proc.devRef .tc main_arg2) = m ((c : Thread nD τ).loc main_arg2) := by
  refine (W8_of_ne m ρ c main_arg2 (by decide)).trans ?_
  show StableHlo.after hostOps2 (W6 m ρ c) (Proc.devRef .tc main_arg2) = _
  after_results
  refine (W6_of_ne m ρ c main_arg2 (by decide)).trans ?_
  show StableHlo.after hostOps1 (W4 m ρ c) (Proc.devRef .tc main_arg2) = _
  after_results
  refine (W4_of_ne m ρ c main_arg2 (by decide)).trans ?_
  show StableHlo.after hostOps0_2 (StableHlo.after hostOps0_1 (StableHlo.after hostOps0 (W0 m ρ c))) (Proc.devRef .tc main_arg2) = _
  after_results <;> rfl

theorem base8_main_arg3 (c : Dev nD) : W8 m ρ c (Proc.devRef .tc main_arg3) = m ((c : Thread nD τ).loc main_arg3) := by
  refine (W8_of_ne m ρ c main_arg3 (by decide)).trans ?_
  show StableHlo.after hostOps2 (W6 m ρ c) (Proc.devRef .tc main_arg3) = _
  after_results
  refine (W6_of_ne m ρ c main_arg3 (by decide)).trans ?_
  show StableHlo.after hostOps1 (W4 m ρ c) (Proc.devRef .tc main_arg3) = _
  after_results
  refine (W4_of_ne m ρ c main_arg3 (by decide)).trans ?_
  show StableHlo.after hostOps0_2 (StableHlo.after hostOps0_1 (StableHlo.after hostOps0 (W0 m ρ c))) (Proc.devRef .tc main_arg3) = _
  after_results <;> rfl

theorem base8_main_arg8 (c : Dev nD) : W8 m ρ c (Proc.devRef .tc main_arg8) = m ((c : Thread nD τ).loc main_arg8) := by
  refine (W8_of_ne m ρ c main_arg8 (by decide)).trans ?_
  show StableHlo.after hostOps2 (W6 m ρ c) (Proc.devRef .tc main_arg8) = _
  after_results
  refine (W6_of_ne m ρ c main_arg8 (by decide)).trans ?_
  show StableHlo.after hostOps1 (W4 m ρ c) (Proc.devRef .tc main_arg8) = _
  after_results
  refine (W4_of_ne m ρ c main_arg8 (by decide)).trans ?_
  show StableHlo.after hostOps0_2 (StableHlo.after hostOps0_1 (StableHlo.after hostOps0 (W0 m ρ c))) (Proc.devRef .tc main_arg8) = _
  after_results <;> rfl

theorem base8_main_arg9 (c : Dev nD) : W8 m ρ c (Proc.devRef .tc main_arg9) = m ((c : Thread nD τ).loc main_arg9) := by
  refine (W8_of_ne m ρ c main_arg9 (by decide)).trans ?_
  show StableHlo.after hostOps2 (W6 m ρ c) (Proc.devRef .tc main_arg9) = _
  after_results
  refine (W6_of_ne m ρ c main_arg9 (by decide)).trans ?_
  show StableHlo.after hostOps1 (W4 m ρ c) (Proc.devRef .tc main_arg9) = _
  after_results
  refine (W4_of_ne m ρ c main_arg9 (by decide)).trans ?_
  show StableHlo.after hostOps0_2 (StableHlo.after hostOps0_1 (StableHlo.after hostOps0 (W0 m ρ c))) (Proc.devRef .tc main_arg9) = _
  after_results <;> rfl

theorem base8_main_arg10 (c : Dev nD) : W8 m ρ c (Proc.devRef .tc main_arg10) = m ((c : Thread nD τ).loc main_arg10) := by
  refine (W8_of_ne m ρ c main_arg10 (by decide)).trans ?_
  show StableHlo.after hostOps2 (W6 m ρ c) (Proc.devRef .tc main_arg10) = _
  after_results
  refine (W6_of_ne m ρ c main_arg10 (by decide)).trans ?_
  show StableHlo.after hostOps1 (W4 m ρ c) (Proc.devRef .tc main_arg10) = _
  after_results
  refine (W4_of_ne m ρ c main_arg10 (by decide)).trans ?_
  show StableHlo.after hostOps0_2 (StableHlo.after hostOps0_1 (StableHlo.after hostOps0 (W0 m ρ c))) (Proc.devRef .tc main_arg10) = _
  after_results <;> rfl

theorem base8_main_arg11 (c : Dev nD) : W8 m ρ c (Proc.devRef .tc main_arg11) = m ((c : Thread nD τ).loc main_arg11) := by
  refine (W8_of_ne m ρ c main_arg11 (by decide)).trans ?_
  show StableHlo.after hostOps2 (W6 m ρ c) (Proc.devRef .tc main_arg11) = _
  after_results
  refine (W6_of_ne m ρ c main_arg11 (by decide)).trans ?_
  show StableHlo.after hostOps1 (W4 m ρ c) (Proc.devRef .tc main_arg11) = _
  after_results
  refine (W4_of_ne m ρ c main_arg11 (by decide)).trans ?_
  show StableHlo.after hostOps0_2 (StableHlo.after hostOps0_1 (StableHlo.after hostOps0 (W0 m ρ c))) (Proc.devRef .tc main_arg11) = _
  after_results <;> rfl

/-! ## Branch Y -/

section BranchY

theorem entryY_main_arg2 (c : Dev nD) : V11 m ρ c main_arg2 = m ((c : Thread nD τ).loc main_arg2) := by
  show StableHlo.after hostOps3_2 (StableHlo.after hostOps3_1 (StableHlo.after hostOps3 (W8 m ρ c))) (Proc.devRef .tc main_arg2) = _
  after_results <;> first | rfl | exact base8_main_arg2 m ρ c

theorem entryY_main_arg8 (c : Dev nD) : V11 m ρ c main_arg8 = m ((c : Thread nD τ).loc main_arg8) := by
  show StableHlo.after hostOps3_2 (StableHlo.after hostOps3_1 (StableHlo.after hostOps3 (W8 m ρ c))) (Proc.devRef .tc main_arg8) = _
  after_results <;> first | rfl | exact base8_main_arg8 m ρ c

theorem entryY_main_arg9 (c : Dev nD) : V11 m ρ c main_arg9 = m ((c : Thread nD τ).loc main_arg9) := by
  show StableHlo.after hostOps3_2 (StableHlo.after hostOps3_1 (StableHlo.after hostOps3 (W8 m ρ c))) (Proc.devRef .tc main_arg9) = _
  after_results <;> first | rfl | exact base8_main_arg9 m ρ c

theorem entryY_main_arg10 (c : Dev nD) : V11 m ρ c main_arg10 = m ((c : Thread nD τ).loc main_arg10) := by
  show StableHlo.after hostOps3_2 (StableHlo.after hostOps3_1 (StableHlo.after hostOps3 (W8 m ρ c))) (Proc.devRef .tc main_arg10) = _
  after_results <;> first | rfl | exact base8_main_arg10 m ρ c

theorem entryY_main_arg11 (c : Dev nD) : V11 m ρ c main_arg11 = m ((c : Thread nD τ).loc main_arg11) := by
  show StableHlo.after hostOps3_2 (StableHlo.after hostOps3_1 (StableHlo.after hostOps3 (W8 m ρ c))) (Proc.devRef .tc main_arg11) = _
  after_results <;> first | rfl | exact base8_main_arg11 m ρ c

/-- At the first kernel's entry the reading rows are the edge list's first row and the self-loops. -/
theorem entryY_src (c : Dev nD) : V11 m ρ c main_v48 = Cert.ReferenceIdeal.Form.srcVec (m ((c : Thread nD τ).loc main_arg3)) := by
  show StableHlo.after hostOps3_2 (StableHlo.after hostOps3_1 (StableHlo.after hostOps3 (W8 m ρ c))) (Proc.devRef .tc main_v48) = _
  after_results <;> first | rfl | (rw [show W8 m ρ c (Proc.devRef .tc main_arg3) = _ from base8_main_arg3 m ρ c]; rfl)

/-- … the landing rows its second row and the self-loops. -/
theorem entryY_dst (c : Dev nD) : V11 m ρ c main_v49 = Cert.ReferenceIdeal.Form.dstVec (m ((c : Thread nD τ).loc main_arg3)) := by
  show StableHlo.after hostOps3_2 (StableHlo.after hostOps3_1 (StableHlo.after hostOps3 (W8 m ρ c))) (Proc.devRef .tc main_v49) = _
  after_results <;> first | rfl | (rw [show W8 m ρ c (Proc.devRef .tc main_arg3) = _ from base8_main_arg3 m ρ c]; rfl)

set_option maxHeartbeats 4000000 in
/-- After the first stretch: where the degree is positive, … -/
theorem positiveY (c : Dev nD) : StableHlo.after hostOps3 (W8 m ρ c) (Proc.devRef .tc main_v55) = cmpf .ogt (Cert.ReferenceIdeal.Form.degree (Cert.ReferenceIdeal.Form.dstVec (m ((c : Thread nD τ).loc main_arg3)))) (broadcastInDim S50000 ![] bcast_S_S50000 (constant (F := Ideal) S_ .f32 0x00000000#32)) := by
  after_results
  rw [show W8 m ρ c (Proc.devRef .tc main_arg3) = _ from base8_main_arg3 m ρ c]
  rfl

set_option maxHeartbeats 4000000 in
/-- … the reciprocal square root of the degree bounded below, … -/
theorem rsqrtDegY (c : Dev nD) : StableHlo.after hostOps3 (W8 m ρ c) (Proc.devRef .tc main_v58) = Host.rsqrt (maximumf (Cert.ReferenceIdeal.Form.degree (Cert.ReferenceIdeal.Form.dstVec (m ((c : Thread nD τ).loc main_arg3)))) (broadcastInDim S50000 ![] bcast_S_S50000 (constant (F := Ideal) S_ .f32 0x2B8CBCCC#32))) := by
  after_results
  rw [show W8 m ρ c (Proc.devRef .tc main_arg3) = _ from base8_main_arg3 m ρ c]
  rfl

/-- … and the zero the selection falls back to. -/
theorem zeroScalarY (c : Dev nD) : StableHlo.after hostOps3 (W8 m ρ c) (Proc.devRef .tc main_cst_13) = constant (F := Ideal) S_ .f32 0x00000000#32 := by
  after_results <;> rfl

/-- The selection, from any buffer contents holding its three operands. -/
theorem selectY (Wv : Valuation τ sig (Elt Ideal)) (A : IVec S50000 1) (B : FVec Ideal S50000 .f32) (Cc : FVec Ideal S_ .f32)
    (hA : Wv (Proc.devRef .tc main_v55) = A) (hB : Wv (Proc.devRef .tc main_v58) = B) (hC : Wv (Proc.devRef .tc main_cst_13) = Cc) :
    StableHlo.after hostOps3_1 Wv (Proc.devRef .tc main_v59)
      = select A B (broadcastInDim S50000 ![] bcast_S_S50000 (id Cc)) := by
  after_results
  rw [hA, hB, hC]
  rfl

/-- The normalizer as a column, from any buffer contents holding the normalizer vector. -/
theorem columnY (Wv : Valuation τ sig (Elt Ideal)) (D : FVec Ideal S50000 .f32) (hD : Wv (Proc.devRef .tc main_v59) = D) :
    StableHlo.after hostOps3_2 Wv (Proc.devRef .tc main_v60) = shapeCast S50000x1 D shapeCasts_S50000_S50000x1 := by
  after_results
  rw [hD]
  rfl

/-- … and the normalizer column is the normalizer of the landing rows' degree, as a column. -/
theorem entryY_dis (c : Dev nD) : V11 m ρ c main_v60 = (shapeCast S50000x1 (Cert.ReferenceIdeal.Form.normalizer (Cert.ReferenceIdeal.Form.degree (Cert.ReferenceIdeal.Form.dstVec (m ((c : Thread nD τ).loc main_arg3))))) shapeCasts_S50000_S50000x1) :=
  (columnY (StableHlo.after hostOps3_1 (StableHlo.after hostOps3 (W8 m ρ c))) _
    (selectY (StableHlo.after hostOps3 (W8 m ρ c)) _ _ _ (positiveY m ρ c) (rsqrtDegY m ρ c) (zeroScalarY m ρ c))).trans rfl

/-- The first kernel leaves the scaled product. -/
theorem h1Y (c : Dev nD) : V12 m ρ c main_v61
    = Arrays.scaled128 (m ((c : Thread nD τ).loc main_arg2)) (m ((c : Thread nD τ).loc main_arg8)) (shapeCast S50000x1 (Cert.ReferenceIdeal.Form.normalizer (Cert.ReferenceIdeal.Form.degree (Cert.ReferenceIdeal.Form.dstVec (m ((c : Thread nD τ).loc main_arg3))))) shapeCasts_S50000_S50000x1) := by
  refine (W12_arr m ρ c 3).trans ?_
  rw [Arrays.final3 (V11 m ρ) c, entryY_main_arg2, entryY_main_arg8, entryY_dis]

/-- What the first kernel does not write it leaves. -/
theorem keepY0_src (c : Dev nD) : V12 m ρ c main_v48 = Cert.ReferenceIdeal.Form.srcVec (m ((c : Thread nD τ).loc main_arg3)) :=
  (W12_of_ne m ρ c main_v48 (by decide)).trans (entryY_src m ρ c)
theorem keepY0_dst (c : Dev nD) : V12 m ρ c main_v49 = Cert.ReferenceIdeal.Form.dstVec (m ((c : Thread nD τ).loc main_arg3)) :=
  (W12_of_ne m ρ c main_v49 (by decide)).trans (entryY_dst m ρ c)
theorem keepY0_b1 (c : Dev nD) : V12 m ρ c main_arg9 = m ((c : Thread nD τ).loc main_arg9) :=
  (W12_of_ne m ρ c main_arg9 (by decide)).trans (entryY_main_arg9 m ρ c)
theorem keepY0_w2 (c : Dev nD) : V12 m ρ c main_arg10 = m ((c : Thread nD τ).loc main_arg10) :=
  (W12_of_ne m ρ c main_arg10 (by decide)).trans (entryY_main_arg10 m ρ c)
theorem keepY0_b2 (c : Dev nD) : V12 m ρ c main_arg11 = m ((c : Thread nD τ).loc main_arg11) :=
  (W12_of_ne m ρ c main_arg11 (by decide)).trans (entryY_main_arg11 m ρ c)
theorem keepY0_dis (c : Dev nD) : V12 m ρ c main_v60 = (shapeCast S50000x1 (Cert.ReferenceIdeal.Form.normalizer (Cert.ReferenceIdeal.Form.degree (Cert.ReferenceIdeal.Form.dstVec (m ((c : Thread nD τ).loc main_arg3))))) shapeCasts_S50000_S50000x1) :=
  ((W12_arr m ρ c 2).trans (((dat3 (V11 m ρ) c).arrAt_in 2 rfl _).trans (A_eq3 (V11 m ρ) c 2))).trans (entryY_dis m ρ c)

set_option maxHeartbeats 4000000 in
/-- The host stretch before the second kernel: the scaled product's rows gathered and added into the landing rows;
    the first bias as a row; the rest as it was. -/
theorem agg1Y (c : Dev nD) : V13 m ρ c main_v71
    = Form.sum128 (Arrays.scaled128 (m ((c : Thread nD τ).loc main_arg2)) (m ((c : Thread nD τ).loc main_arg8)) (shapeCast S50000x1 (Cert.ReferenceIdeal.Form.normalizer (Cert.ReferenceIdeal.Form.degree (Cert.ReferenceIdeal.Form.dstVec (m ((c : Thread nD τ).loc main_arg3))))) shapeCasts_S50000_S50000x1))
        (Cert.ReferenceIdeal.Form.wrapCol (Cert.ReferenceIdeal.Form.srcVec (m ((c : Thread nD τ).loc main_arg3)))) (Cert.ReferenceIdeal.Form.rawCol (Cert.ReferenceIdeal.Form.dstVec (m ((c : Thread nD τ).loc main_arg3)))) := by
  show StableHlo.after hostOps4 (W12 m ρ c) (Proc.devRef .tc main_v71) = _
  after_results_simp
  rw [show W12 m ρ c (Proc.devRef .tc main_v61) = _ from h1Y m ρ c,
    show W12 m ρ c (Proc.devRef .tc main_v48) = _ from keepY0_src m ρ c,
    show W12 m ρ c (Proc.devRef .tc main_v49) = _ from keepY0_dst m ρ c]
  rfl
theorem b1rowY (c : Dev nD) : V13 m ρ c main_v72 = shapeCast S1x128 (m ((c : Thread nD τ).loc main_arg9)) shapeCasts_S128_S1x128 := by
  show StableHlo.after hostOps4 (W12 m ρ c) (Proc.devRef .tc main_v72) = _
  after_results
  rw [show W12 m ρ c (Proc.devRef .tc main_arg9) = _ from keepY0_b1 m ρ c]
  rfl
theorem keepY1_dis (c : Dev nD) : V13 m ρ c main_v60 = (shapeCast S50000x1 (Cert.ReferenceIdeal.Form.normalizer (Cert.ReferenceIdeal.Form.degree (Cert.ReferenceIdeal.Form.dstVec (m ((c : Thread nD τ).loc main_arg3))))) shapeCasts_S50000_S50000x1) := by
  show StableHlo.after hostOps4 (W12 m ρ c) (Proc.devRef .tc main_v60) = _
  after_results <;> exact keepY0_dis m ρ c
theorem keepY1_w2 (c : Dev nD) : V13 m ρ c main_arg10 = m ((c : Thread nD τ).loc main_arg10) := by
  show StableHlo.after hostOps4 (W12 m ρ c) (Proc.devRef .tc main_arg10) = _
  after_results <;> exact keepY0_w2 m ρ c
theorem keepY1_b2 (c : Dev nD) : V13 m ρ c main_arg11 = m ((c : Thread nD τ).loc main_arg11) := by
  show StableHlo.after hostOps4 (W12 m ρ c) (Proc.devRef .tc main_arg11) = _
  after_results <;> exact keepY0_b2 m ρ c
theorem keepY1_src (c : Dev nD) : V13 m ρ c main_v48 = Cert.ReferenceIdeal.Form.srcVec (m ((c : Thread nD τ).loc main_arg3)) := by
  show StableHlo.after hostOps4 (W12 m ρ c) (Proc.devRef .tc main_v48) = _
  after_results <;> exact keepY0_src m ρ c
theorem keepY1_dst (c : Dev nD) : V13 m ρ c main_v49 = Cert.ReferenceIdeal.Form.dstVec (m ((c : Thread nD τ).loc main_arg3)) := by
  show StableHlo.after hostOps4 (W12 m ρ c) (Proc.devRef .tc main_v49) = _
  after_results <;> exact keepY0_dst m ρ c

/-- The second kernel leaves the clipped product. -/
theorem h2Y (c : Dev nD) : V14 m ρ c main_v73
    = ArraysB.clipped64
        (Form.sum128 (Arrays.scaled128 (m ((c : Thread nD τ).loc main_arg2)) (m ((c : Thread nD τ).loc main_arg8)) (shapeCast S50000x1 (Cert.ReferenceIdeal.Form.normalizer (Cert.ReferenceIdeal.Form.degree (Cert.ReferenceIdeal.Form.dstVec (m ((c : Thread nD τ).loc main_arg3))))) shapeCasts_S50000_S50000x1))
          (Cert.ReferenceIdeal.Form.wrapCol (Cert.ReferenceIdeal.Form.srcVec (m ((c : Thread nD τ).loc main_arg3)))) (Cert.ReferenceIdeal.Form.rawCol (Cert.ReferenceIdeal.Form.dstVec (m ((c : Thread nD τ).loc main_arg3)))))
        (shapeCast S50000x1 (Cert.ReferenceIdeal.Form.normalizer (Cert.ReferenceIdeal.Form.degree (Cert.ReferenceIdeal.Form.dstVec (m ((c : Thread nD τ).loc main_arg3))))) shapeCasts_S50000_S50000x1) (shapeCast S1x128 (m ((c : Thread nD τ).loc main_arg9)) shapeCasts_S128_S1x128) (m ((c : Thread nD τ).loc main_arg10)) := by
  refine (W14_arr m ρ c 4).trans ?_
  rw [ArraysB.final4 (V13 m ρ) c, agg1Y, keepY1_dis, b1rowY, keepY1_w2]
theorem keepY2_src (c : Dev nD) : V14 m ρ c main_v48 = Cert.ReferenceIdeal.Form.srcVec (m ((c : Thread nD τ).loc main_arg3)) :=
  (W14_of_ne m ρ c main_v48 (by decide)).trans (keepY1_src m ρ c)
theorem keepY2_dst (c : Dev nD) : V14 m ρ c main_v49 = Cert.ReferenceIdeal.Form.dstVec (m ((c : Thread nD τ).loc main_arg3)) :=
  (W14_of_ne m ρ c main_v49 (by decide)).trans (keepY1_dst m ρ c)
theorem keepY2_b2 (c : Dev nD) : V14 m ρ c main_arg11 = m ((c : Thread nD τ).loc main_arg11) :=
  (W14_of_ne m ρ c main_arg11 (by decide)).trans (keepY1_b2 m ρ c)
theorem keepY2_dis (c : Dev nD) : V14 m ρ c main_v60 = (shapeCast S50000x1 (Cert.ReferenceIdeal.Form.normalizer (Cert.ReferenceIdeal.Form.degree (Cert.ReferenceIdeal.Form.dstVec (m ((c : Thread nD τ).loc main_arg3))))) shapeCasts_S50000_S50000x1) :=
  ((W14_arr m ρ c 1).trans (((dat4 (V13 m ρ) c).arrAt_in 1 rfl _).trans (A_eq4 (V13 m ρ) c 1))).trans (keepY1_dis m ρ c)

set_option maxHeartbeats 4000000 in
/-- The host stretch before the third kernel: the clipped product's rows gathered and added into the landing rows;
    the second bias as a row. -/
theorem agg2Y (c : Dev nD) : V15 m ρ c main_v83
    = Form.sum64 (V14 m ρ c main_v73) (Cert.ReferenceIdeal.Form.wrapCol (Cert.ReferenceIdeal.Form.srcVec (m ((c : Thread nD τ).loc main_arg3)))) (Cert.ReferenceIdeal.Form.rawCol (Cert.ReferenceIdeal.Form.dstVec (m ((c : Thread nD τ).loc main_arg3)))) := by
  show StableHlo.after hostOps5 (W14 m ρ c) (Proc.devRef .tc main_v83) = _
  after_results_simp
  rw [show W14 m ρ c (Proc.devRef .tc main_v48) = _ from keepY2_src m ρ c,
    show W14 m ρ c (Proc.devRef .tc main_v49) = _ from keepY2_dst m ρ c]
  rfl
theorem b2rowY (c : Dev nD) : V15 m ρ c main_v84 = shapeCast S1x64 (m ((c : Thread nD τ).loc main_arg11)) shapeCasts_S64_S1x64 := by
  show StableHlo.after hostOps5 (W14 m ρ c) (Proc.devRef .tc main_v84) = _
  after_results
  rw [show W14 m ρ c (Proc.devRef .tc main_arg11) = _ from keepY2_b2 m ρ c]
  rfl
theorem keepY3_dis (c : Dev nD) : V15 m ρ c main_v60 = (shapeCast S50000x1 (Cert.ReferenceIdeal.Form.normalizer (Cert.ReferenceIdeal.Form.degree (Cert.ReferenceIdeal.Form.dstVec (m ((c : Thread nD τ).loc main_arg3))))) shapeCasts_S50000_S50000x1) := by
  show StableHlo.after hostOps5 (W14 m ρ c) (Proc.devRef .tc main_v60) = _
  after_results <;> exact keepY2_dis m ρ c

/-- The third kernel leaves the branch's result: the kernel's composition of the launch arguments. -/
theorem outY (c : Dev nD) : V16 m ρ c main_v85
    = Form.branch (m ((c : Thread nD τ).loc main_arg2)) (m ((c : Thread nD τ).loc main_arg8)) (m ((c : Thread nD τ).loc main_arg9)) (m ((c : Thread nD τ).loc main_arg10)) (m ((c : Thread nD τ).loc main_arg11))
        (shapeCast S50000x1 (Cert.ReferenceIdeal.Form.normalizer (Cert.ReferenceIdeal.Form.degree (Cert.ReferenceIdeal.Form.dstVec (m ((c : Thread nD τ).loc main_arg3))))) shapeCasts_S50000_S50000x1) (Cert.ReferenceIdeal.Form.wrapCol (Cert.ReferenceIdeal.Form.srcVec (m ((c : Thread nD τ).loc main_arg3)))) (Cert.ReferenceIdeal.Form.rawCol (Cert.ReferenceIdeal.Form.dstVec (m ((c : Thread nD τ).loc main_arg3)))) := by
  refine (W16_arr m ρ c 3).trans ?_
  rw [ArraysC.final5 (V15 m ρ) c, agg2Y, h2Y, keepY3_dis, b2rowY]
  rfl

end BranchY

/-! ## The first branch's result is not written again -/

theorem tailX (c : Dev nD) : W16 m ρ c (Proc.devRef .tc main_v42) = W8 m ρ c (Proc.devRef .tc main_v42) := by
  refine (W16_of_ne m ρ c main_v42 (by decide)).trans ?_
  show StableHlo.after hostOps5 (W14 m ρ c) (Proc.devRef .tc main_v42) = _
  after_results
  refine (W14_of_ne m ρ c main_v42 (by decide)).trans ?_
  show StableHlo.after hostOps4 (W12 m ρ c) (Proc.devRef .tc main_v42) = _
  after_results
  refine (W12_of_ne m ρ c main_v42 (by decide)).trans ?_
  show StableHlo.after hostOps3_2 (StableHlo.after hostOps3_1 (StableHlo.after hostOps3 (W8 m ρ c))) (Proc.devRef .tc main_v42) = _
  after_results <;> rfl

end Cert.KernelIdeal.Chain

end
-- ==== Proof.lean ====
/-
  The certificate: a two-layer graph convolution on two independent branches, a kernel in three fused stages per
  branch against the plain formulation.

  Per layer the reference weights every gathered row by `dis[src] · dis[dst]` and adds it into row `dst`; the kernel
  scales the rows by `dis` before they are gathered and the summed rows by `dis` afterwards. On the extended reals the
  two agree because the normalizer `dis = [deg > 0] · rsqrt (max deg ε)` is nonnegative and never `+∞`, so it
  distributes over the sum whatever the summands are; the precondition on the inputs is not needed for it. The
  frames are the programs' runs with the results dropped; the ideal pass rewrote nothing, so the kernel's
  idealization is its own text read on the extended reals.
-/
import proofs.«116244_j75265006895439_2_alg».proof.Defs
import proofs.«116244_j75265006895439_2_alg».proof.Proof.Gen.Kernel
import proofs.«116244_j75265006895439_2_alg».proof.Proof.Gen.Kernel.Skeleton
import proofs.«116244_j75265006895439_2_alg».proof.Proof.Gen.Kernel.Launch
import proofs.«116244_j75265006895439_2_alg».proof.Proof.Gen.Kernel.Points
import proofs.«116244_j75265006895439_2_alg».proof.Proof.Gen.Kernel.Frame
import proofs.«116244_j75265006895439_2_alg».proof.Proof.Gen.KernelIdeal
import proofs.«116244_j75265006895439_2_alg».proof.Proof.Gen.KernelIdeal.Skeleton
import proofs.«116244_j75265006895439_2_alg».proof.Proof.Gen.KernelIdeal.Launch
import proofs.«116244_j75265006895439_2_alg».proof.Proof.Gen.KernelIdeal.Points
import proofs.«116244_j75265006895439_2_alg».proof.Proof.Gen.KernelIdeal.Frame
import proofs.«116244_j75265006895439_2_alg».proof.Proof.Gen.ReferenceIdeal
import proofs.«116244_j75265006895439_2_alg».proof.Proof.Gen.Pre_finite_inputs
import proofs.«116244_j75265006895439_2_alg».proof.Proof.KernelRun
import proofs.«116244_j75265006895439_2_alg».proof.Proof.KernelChain
import proofs.«116244_j75265006895439_2_alg».proof.Proof.BranchForms
import proofs.«116244_j75265006895439_2_alg».proof.Proof.RefRunP
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-! ## The reference's composed results are the reference's composition of the launch arguments -/

theorem ref_first (m' : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v98 m' c
      = Cert.ReferenceIdeal.Form.branch (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
      (Cert.ReferenceIdeal.Form.normalizer (Cert.ReferenceIdeal.Form.degree (Cert.ReferenceIdeal.Form.dstVec (m' ((c.tc : Thread Cert.ReferenceIdeal.nD Cert.ReferenceIdeal.τ).loc Cert.ReferenceIdeal.main_arg1)))))
      (Cert.ReferenceIdeal.Form.wrapCol (Cert.ReferenceIdeal.Form.srcVec (m' ((c.tc : Thread Cert.ReferenceIdeal.nD Cert.ReferenceIdeal.τ).loc Cert.ReferenceIdeal.main_arg1)))) (Cert.ReferenceIdeal.Form.wrapCol (Cert.ReferenceIdeal.Form.dstVec (m' ((c.tc : Thread Cert.ReferenceIdeal.nD Cert.ReferenceIdeal.τ).loc Cert.ReferenceIdeal.main_arg1)))) (Cert.ReferenceIdeal.Form.rawCol (Cert.ReferenceIdeal.Form.dstVec (m' ((c.tc : Thread Cert.ReferenceIdeal.nD Cert.ReferenceIdeal.τ).loc Cert.ReferenceIdeal.main_arg1)))) := by
  unfold Cert.ReferenceIdeal.ValueP.res_main_v98
  rfl

theorem ref_second (m' : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v197 m' c
      = Cert.ReferenceIdeal.Form.branch (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
      (Cert.ReferenceIdeal.Form.normalizer (Cert.ReferenceIdeal.Form.degree (Cert.ReferenceIdeal.Form.dstVec (m' ((c.tc : Thread Cert.ReferenceIdeal.nD Cert.ReferenceIdeal.τ).loc Cert.ReferenceIdeal.main_arg3)))))
      (Cert.ReferenceIdeal.Form.wrapCol (Cert.ReferenceIdeal.Form.srcVec (m' ((c.tc : Thread Cert.ReferenceIdeal.nD Cert.ReferenceIdeal.τ).loc Cert.ReferenceIdeal.main_arg3)))) (Cert.ReferenceIdeal.Form.wrapCol (Cert.ReferenceIdeal.Form.dstVec (m' ((c.tc : Thread Cert.ReferenceIdeal.nD Cert.ReferenceIdeal.τ).loc Cert.ReferenceIdeal.main_arg3)))) (Cert.ReferenceIdeal.Form.rawCol (Cert.ReferenceIdeal.Form.dstVec (m' ((c.tc : Thread Cert.ReferenceIdeal.nD Cert.ReferenceIdeal.τ).loc Cert.ReferenceIdeal.main_arg3)))) := by
  unfold Cert.ReferenceIdeal.ValueP.res_main_v197
  rfl

/-- The reference's composition is the kernel's, for any edge list: the normalizer of any degree vector is nonnegative
    and never `+∞`, and wrapping a nonnegative landing row changes nothing. -/
theorem compositions_agree (x : FVec Ideal ⟨2, ![50000, 128]⟩ .f32) (ei : IVec ⟨2, ![2, 800000]⟩ 32)
    (w1 : FVec Ideal ⟨2, ![128, 128]⟩ .f32) (b1 : FVec Ideal ⟨1, ![128]⟩ .f32)
    (w2 : FVec Ideal ⟨2, ![128, 64]⟩ .f32) (b2 : FVec Ideal ⟨1, ![64]⟩ .f32) :
    Cert.ReferenceIdeal.Form.branch x w1 b1 w2 b2 (Cert.ReferenceIdeal.Form.normalizer (Cert.ReferenceIdeal.Form.degree (Cert.ReferenceIdeal.Form.dstVec ei)))
        (Cert.ReferenceIdeal.Form.wrapCol (Cert.ReferenceIdeal.Form.srcVec ei)) (Cert.ReferenceIdeal.Form.wrapCol (Cert.ReferenceIdeal.Form.dstVec ei)) (Cert.ReferenceIdeal.Form.rawCol (Cert.ReferenceIdeal.Form.dstVec ei))
      = Cert.KernelIdeal.Form.branch x w1 b1 w2 b2
          (shapeCast Cert.KernelIdeal.S50000x1 (Cert.ReferenceIdeal.Form.normalizer (Cert.ReferenceIdeal.Form.degree (Cert.ReferenceIdeal.Form.dstVec ei))) Cert.KernelIdeal.Gen.shapeCasts_S50000_S50000x1)
          (Cert.ReferenceIdeal.Form.wrapCol (Cert.ReferenceIdeal.Form.srcVec ei)) (Cert.ReferenceIdeal.Form.rawCol (Cert.ReferenceIdeal.Form.dstVec ei)) :=
  Cert.Bridge.branch_eq x w1 b1 w2 b2 _ _ _ _
    (fun n => (Cert.Bridge.normalizer_apply_bounds _ n).1) (fun n => (Cert.Bridge.normalizer_apply_bounds _ n).2)
    (fun e h => Cert.Bridge.wrapCol_of_nonneg _ e h)

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.ValueP.run (F := Ideal) m ρ)

/-- Both programs end, from memories that agree on the arguments, with each result at the kernel's composition of
    the launch arguments. -/
theorem algebraic : Cert.algebraic_KernelIdeal_ReferenceIdeal := by
  intro m ρ m' ρ' _ hagree
  refine ⟨fun c => Cert.KernelIdeal.Form.branch (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (shapeCast Cert.KernelIdeal.S50000x1 (Cert.ReferenceIdeal.Form.normalizer (Cert.ReferenceIdeal.Form.degree (Cert.ReferenceIdeal.Form.dstVec (m ((c.tc : Thread Cert.KernelIdeal.nD Cert.KernelIdeal.τ).loc Cert.KernelIdeal.main_arg1))))) Cert.KernelIdeal.Gen.shapeCasts_S50000_S50000x1)
      (Cert.ReferenceIdeal.Form.wrapCol (Cert.ReferenceIdeal.Form.srcVec (m ((c.tc : Thread Cert.KernelIdeal.nD Cert.KernelIdeal.τ).loc Cert.KernelIdeal.main_arg1)))) (Cert.ReferenceIdeal.Form.rawCol (Cert.ReferenceIdeal.Form.dstVec (m ((c.tc : Thread Cert.KernelIdeal.nD Cert.KernelIdeal.τ).loc Cert.KernelIdeal.main_arg1)))),
    fun c => Cert.KernelIdeal.Form.branch (m ((c.tc : Thread Cert.KernelIdeal.nD Cert.KernelIdeal.τ).loc Cert.KernelIdeal.main_arg2)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      (shapeCast Cert.KernelIdeal.S50000x1 (Cert.ReferenceIdeal.Form.normalizer (Cert.ReferenceIdeal.Form.degree (Cert.ReferenceIdeal.Form.dstVec (m ((c.tc : Thread Cert.KernelIdeal.nD Cert.KernelIdeal.τ).loc Cert.KernelIdeal.main_arg3))))) Cert.KernelIdeal.Gen.shapeCasts_S50000_S50000x1)
      (Cert.ReferenceIdeal.Form.wrapCol (Cert.ReferenceIdeal.Form.srcVec (m ((c.tc : Thread Cert.KernelIdeal.nD Cert.KernelIdeal.τ).loc Cert.KernelIdeal.main_arg3)))) (Cert.ReferenceIdeal.Form.rawCol (Cert.ReferenceIdeal.Form.dstVec (m ((c.tc : Thread Cert.KernelIdeal.nD Cert.KernelIdeal.τ).loc Cert.KernelIdeal.main_arg3)))), ?_, ?_⟩
  · refine (θ_run Cert.KernelIdeal.defs _ _).mono (fun r h c => ?_) (Cert.KernelIdeal.Results.run_results (F := Ideal) m ρ)
    obtain ⟨h42, h85, hargs⟩ := h c
    exact ⟨h42.trans ((Cert.KernelIdeal.Chain.tailX m ρ c).trans (Cert.KernelIdeal.Chain.outX m ρ c)), h85.trans (Cert.KernelIdeal.Chain.outY m ρ c), hargs⟩
  · refine (θ_run Cert.ReferenceIdeal.defs _ _).mono (fun r h c => ?_) (Cert.ReferenceIdeal.ValueP.run (F := Ideal) m' ρ')
    obtain ⟨h98, h197, hargs⟩ := h c
    obtain ⟨a0, a1, a2, a3, a4, a5, a6, a7, a8, a9, a10, a11⟩ := hagree c
    refine ⟨h98.trans ?_, h197.trans ?_, hargs⟩
    · rw [ref_first, compositions_agree, a0, a1, a4, a5, a6, a7]
    · rw [ref_second, compositions_agree, a2, a3, a8, a9, a10, a11]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
